-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S2x400000 : Shape := ⟨2, ![2, 400000]⟩
abbrev S_ : Shape := ⟨0, ![]⟩
abbrev S192x128 : Shape := ⟨2, ![192, 128]⟩
abbrev S128 : Shape := ⟨1, ![128]⟩
abbrev S128x128 : Shape := ⟨2, ![128, 128]⟩
abbrev S64x128 : Shape := ⟨2, ![64, 128]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  reducesTo_S_S_d : S_.ReducesTo [] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part5 {F : FTy → Type} [FloatOps F] (main_arg19 : FVec F S128 .f32) (main_arg20 : FVec F S128 .f32) (main_v81 : IVec S_ 1) (main_v84 : IVec S128 1) : IVec S_ 1 :=
  let main_c_33 : IVec S_ 1 := constantI S_ 1 1#1
  let main_v85 : IVec S_ 1 := (fun x v => Host.reduce IntOp.andi x v reducesTo_S128_S_d0 h_S_) main_v84 main_c_33
  let main_v86 : IVec S_ 1 := andi main_v81 main_v85
  let main_v87 : FVec F S128 .f32 := Host.absf main_arg19
  let main_cst_34 : FVec F S_ .f32 := constant S_ .f32 0x7F800000#32
  let main_v88 : FVec F S128 .f32 := broadcastInDim S128 ![] bcast_S_S128 main_cst_34
  let main_v89 : IVec S128 1 := cmpf .olt main_v87 main_v88
  let main_c_35 : IVec S_ 1 := constantI S_ 1 1#1
  let main_v90 : IVec S_ 1 := (fun x v => Host.reduce IntOp.andi x v reducesTo_S128_S_d0 h_S_) main_v89 main_c_35
  let main_v91 : IVec S_ 1 := andi main_v86 main_v90
  let main_v92 : FVec F S128 .f32 := Host.absf main_arg20
  let main_cst_36 : FVec F S_ .f32 := constant S_ .f32 0x7F800000#32
  let main_v93 : FVec F S128 .f32 := broadcastInDim S128 ![] bcast_S_S128 main_cst_36
  let main_v94 : IVec S128 1 := cmpf .olt main_v92 main_v93
  let main_c_37 : IVec S_ 1 := constantI S_ 1 1#1
  let main_v95 : IVec S_ 1 := (fun x v => Host.reduce IntOp.andi x v reducesTo_S128_S_d0 h_S_) main_v94 main_c_37
  let main_v96 : IVec S_ 1 := andi main_v91 main_v95
  main_v96

def fn_part4 {F : FTy → Type} [FloatOps F] (main_arg16 : FVec F S128 .f32) (main_arg17 : FVec F S128x128 .f32) (main_arg18 : FVec F S128 .f32) (main_arg19 : FVec F S128 .f32) (main_arg20 : FVec F S128 .f32) (main_v66 : IVec S_ 1) (main_v67 : FVec F S128 .f32) : IVec S_ 1 :=
  let main_cst_26 : FVec F S_ .f32 := constant S_ .f32 0x7F800000#32
  let main_v68 : FVec F S128 .f32 := broadcastInDim S128 ![] bcast_S_S128 main_cst_26
  let main_v69 : IVec S128 1 := cmpf .olt main_v67 main_v68
  let main_c_27 : IVec S_ 1 := constantI S_ 1 1#1
  let main_v70 : IVec S_ 1 := (fun x v => Host.reduce IntOp.andi x v reducesTo_S128_S_d0 h_S_) main_v69 main_c_27
  let main_v71 : IVec S_ 1 := andi main_v66 main_v70
  let main_v72 : FVec F S128 .f32 := Host.absf main_arg16
  let main_cst_28 : FVec F S_ .f32 := constant S_ .f32 0x7F800000#32
  let main_v73 : FVec F S128 .f32 := broadcastInDim S128 ![] bcast_S_S128 main_cst_28
  let main_v74 : IVec S128 1 := cmpf .olt main_v72 main_v73
  let main_c_29 : IVec S_ 1 := constantI S_ 1 1#1
  let main_v75 : IVec S_ 1 := (fun x v => Host.reduce IntOp.andi x v reducesTo_S128_S_d0 h_S_) main_v74 main_c_29
  let main_v76 : IVec S_ 1 := andi main_v71 main_v75
  let main_v77 : FVec F S128x128 .f32 := Host.absf main_arg17
  let main_cst_30 : FVec F S_ .f32 := constant S_ .f32 0x7F800000#32
  let main_v78 : FVec F S128x128 .f32 := broadcastInDim S128x128 ![] bcast_S_S128x128 main_cst_30
  let main_v79 : IVec S128x128 1 := cmpf .olt main_v77 main_v78
  let main_c_31 : IVec S_ 1 := constantI S_ 1 1#1
  let main_v80 : IVec S_ 1 := (fun x v => Host.reduce IntOp.andi x v reducesTo_S128x128_S_d0_1 h_S_) main_v79 main_c_31
  let main_v81 : IVec S_ 1 := andi main_v76 main_v80
  let main_v82 : FVec F S128 .f32 := Host.absf main_arg18
  let main_cst_32 : FVec F S_ .f32 := constant S_ .f32 0x7F800000#32
  let main_v83 : FVec F S128 .f32 := broadcastInDim S128 ![] bcast_S_S128 main_cst_32
  let main_v84 : IVec S128 1 := cmpf .olt main_v82 main_v83
  fn_part5 (F := F) main_arg19 main_arg20 main_v81 main_v84

def fn_part3 {F : FTy → Type} [FloatOps F] (main_arg12 : FVec F S_ .f32) (main_arg13 : FVec F S64x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  let main_v53 : FVec F S_ .f32 := Host.absf main_arg12
  let main_cst_20 : FVec F S_ .f32 := constant S_ .f32 0x7F800000#32
  let main_v54 : IVec S_ 1 := cmpf .olt main_v53 main_cst_20
  let main_c_21 : IVec S_ 1 := constantI S_ 1 1#1
  let main_v55 : IVec S_ 1 := (fun x v => Host.reduce IntOp.andi x v reducesTo_S_S_d h_S_) main_v54 main_c_21
  let main_v56 : IVec S_ 1 := andi main_v52 main_v55
  let main_v57 : FVec F S64x128 .f32 := Host.absf main_arg13
  let main_cst_22 : FVec F S_ .f32 := constant S_ .f32 0x7F800000#32
  let main_v58 : FVec F S64x128 .f32 := broadcastInDim S64x128 ![] bcast_S_S64x128 main_cst_22
  let main_v59 : IVec S64x128 1 := cmpf .olt main_v57 main_v58
  let main_c_23 : IVec S_ 1 := constantI S_ 1 1#1
  let main_v60 : IVec S_ 1 := (fun x v => Host.reduce IntOp.andi x v reducesTo_S64x128_S_d0_1 h_S_) main_v59 main_c_23
  let main_v61 : IVec S_ 1 := andi main_v56 main_v60
  let main_v62 : FVec F S128 .f32 := Host.absf main_arg14
  let main_cst_24 : FVec F S_ .f32 := constant S_ .f32 0x7F800000#32
  let main_v63 : FVec F S128 .f32 := broadcastInDim S128 ![] bcast_S_S128 main_cst_24
  let main_v64 : IVec S128 1 := cmpf .olt main_v62 main_v63
  let main_c_25 : IVec S_ 1 := constantI S_ 1 1#1
  let main_v65 : IVec S_ 1 := (fun x v => Host.reduce IntOp.andi x v reducesTo_S128_S_d0 h_S_) main_v64 main_c_25
  let main_v66 : IVec S_ 1 := andi main_v61 main_v65
  let main_v67 : FVec F S128 .f32 := Host.absf main_arg15
  fn_part4 (F := F) main_arg16 main_arg17 main_arg18 main_arg19 main_arg20 main_v66 main_v67

def fn_part2 {F : FTy → Type} [FloatOps F] (main_arg9 : FVec F S128 .f32) (main_arg10 : FVec F S128 .f32) (main_arg11 : FVec F S128 .f32) (main_arg12 : FVec F S_ .f32) (main_arg13 : FVec F S64x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg9
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg10
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S128 .f32 := Host.absf main_arg11
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_arg12 main_arg13 main_arg14 main_arg15 main_arg16 main_arg17 main_arg18 main_arg19 main_arg20 main_v47 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S_ .f32) (main_arg13 : FVec F S64x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) (main_v12 : IVec S_ 1) (main_v15 : IVec S192x128 1) (main_c_5 : IVec S_ 1) : IVec S_ 1 :=
  let main_v16 : IVec S_ 1 := (fun x v => Host.reduce IntOp.andi x v reducesTo_S192x128_S_d0_1 h_S_) main_v15 main_c_5
  let main_v17 : IVec S_ 1 := andi main_v12 main_v16
  let main_v18 : FVec F S128 .f32 := Host.absf main_arg5
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128 .f32 := Host.absf main_arg6
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S128 .f32 := Host.absf main_arg7
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128x128 .f32 := Host.absf main_arg8
  fn_part2 (F := F) main_arg9 main_arg10 main_arg11 main_arg12 main_arg13 main_arg14 main_arg15 main_arg16 main_arg17 main_arg18 main_arg19 main_arg20 main_v32 main_v33

def fn {F : FTy → Type} [FloatOps F] (main_arg0 : FVec F S50000x128 .f32) (main_arg1 : FVec F S50000x64 .f32) (main_arg2 : IVec S2x400000 32) (main_arg3 : FVec F S_ .f32) (main_arg4 : FVec F S192x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S_ .f32) (main_arg13 : FVec F S64x128 .f32) (main_arg14 : FVec F S128 .f32) (main_arg15 : FVec F S128 .f32) (main_arg16 : FVec F S128 .f32) (main_arg17 : FVec F S128x128 .f32) (main_arg18 : FVec F S128 .f32) (main_arg19 : FVec F S128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S192x128 .f32 := Host.absf main_arg4
  let main_cst_4 : FVec F S_ .f32 := constant S_ .f32 0x7F800000#32
  let main_v14 : FVec F S192x128 .f32 := broadcastInDim S192x128 ![] bcast_S_S192x128 main_cst_4
  let main_v15 : IVec S192x128 1 := cmpf .olt main_v13 main_v14
  let main_c_5 : IVec S_ 1 := constantI S_ 1 1#1
  fn_part1 (F := F) main_arg5 main_arg6 main_arg7 main_arg8 main_arg9 main_arg10 main_arg11 main_arg12 main_arg13 main_arg14 main_arg15 main_arg16 main_arg17 main_arg18 main_arg19 main_arg20 main_v12 main_v15 main_c_5
-- ==== Kernel.lean ====
abbrev S50000x128 : Shape := ⟨2, ![50000, 128]⟩
abbrev S50000x64 : Shape := ⟨2, ![50000, 64]⟩
abbrev S2x400000 : Shape := ⟨2, ![2, 400000]⟩
abbrev S_ : Shape := ⟨0, ![]⟩
abbrev S192x128 : Shape := ⟨2, ![192, 128]⟩
abbrev S128 : Shape := ⟨1, ![128]⟩
abbrev S128x128 : Shape := ⟨2, ![128, 128]⟩
abbrev S64x128 : Shape := ⟨2, ![64, 128]⟩
abbrev S1x400000 : Shape := ⟨2, ![1, 400000]⟩
abbrev S400000 : Shape := ⟨1, ![400000]⟩
abbrev S50000x192 : Shape := ⟨2, ![50000, 192]⟩
abbrev S400000x1 : Shape := ⟨2, ![400000, 1]⟩
abbrev S400000x192 : Shape := ⟨2, ![400000, 192]⟩
abbrev S400000x64 : Shape := ⟨2, ![400000, 64]⟩
abbrev S2000x192 : Shape := ⟨2, ![2000, 192]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩
abbrev S2000x64 : Shape := ⟨2, ![2000, 64]⟩

abbrev nBuf : Space → Nat
  | .hbm => 64
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S2x400000, .i32⟩
  | .hbm, ⟨3, _⟩ => ⟨S_, .f32⟩
  | .hbm, ⟨4, _⟩ => ⟨S192x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S64x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x400000, .i32⟩
  | .hbm, ⟨22, _⟩ => ⟨S400000, .i32⟩
  | .hbm, ⟨23, _⟩ => ⟨S1x400000, .i32⟩
  | .hbm, ⟨24, _⟩ => ⟨S400000, .i32⟩
  | .hbm, ⟨25, _⟩ => ⟨S50000x192, .f32⟩
  | .hbm, ⟨26, _⟩ => ⟨S_, .i32⟩
  | .hbm, ⟨27, _⟩ => ⟨S400000, .i32⟩
  | .hbm, ⟨28, _⟩ => ⟨S400000, .i1⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S400000, .i32⟩
  | .hbm, ⟨33, _⟩ => ⟨S400000x1, .i32⟩
  | .hbm, ⟨34, _⟩ => ⟨S400000x192, .f32⟩
  | .hbm, ⟨35, _⟩ => ⟨S_, .f32⟩
  | .hbm, ⟨36, _⟩ => ⟨S50000x192, .f32⟩
  | .hbm, ⟨37, _⟩ => ⟨S400000x1, .i32⟩
  | .hbm, ⟨38, _⟩ => ⟨S50000x192, .f32⟩
  | .hbm, ⟨39, _⟩ => ⟨S_, .f32⟩
  | .hbm, ⟨40, _⟩ => ⟨S_, .f32⟩
  | .hbm, ⟨41, _⟩ => ⟨S50000x192, .f32⟩
  | .hbm, ⟨42, _⟩ => ⟨S50000x192, .f32⟩
  | .hbm, ⟨43, _⟩ => ⟨S50000x192, .f32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S400000x64, .f32⟩
  | .hbm, ⟨53, _⟩ => ⟨S_, .f32⟩
  | .hbm, ⟨54, _⟩ => ⟨S50000x64, .f32⟩
  | .hbm, ⟨55, _⟩ => ⟨S400000x1, .i32⟩
  | .hbm, ⟨56, _⟩ => ⟨S50000x64, .f32⟩
  | .hbm, ⟨57, _⟩ => ⟨S_, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S50000x128, .f32⟩
  | .hbm, ⟨63, _⟩ => ⟨S50000x128, .f32⟩
  | .local _ .vmem, ⟨0, _⟩ => ⟨S2000x192, .f32⟩
  | .local _ .vmem, ⟨1, _⟩ => ⟨S2000x192, .f32⟩
  | .local _ .vmem, ⟨2, _⟩ => ⟨S2000x128, .f32⟩
  | .local _ .vmem, ⟨3, _⟩ => ⟨S2000x128, .f32⟩
  | .local _ .vmem, ⟨4, _⟩ => ⟨S192x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S2000x64, .f32⟩
  | .local _ .vmem, ⟨15, _⟩ => ⟨S2000x64, .f32⟩
  | .local _ .vmem, ⟨16, _⟩ => ⟨S64x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S50000x128_S50000x64_S50000x192_d1 : Shape.Concatenates [S50000x128, S50000x64] S50000x192 1
  bcast_S_S400000 : S_.BroadcastsInDim S400000 (![] : Fin 0 → Fin S400000.rank)
  bcast_S400000_S400000x1_0 : S400000.BroadcastsInDim S400000x1 (![0] : Fin 1 → Fin S400000x1.rank)
  bcast_S_S50000x192 : S_.BroadcastsInDim S50000x192 (![] : Fin 0 → Fin S50000x192.rank)
  bcast_S_S50000x64 : S_.BroadcastsInDim S50000x64 (![] : Fin 0 → Fin S50000x64.rank)
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  inb_S192x128_S192x128_0_0 : ∀ a, (![0, 0] : Fin 2 → Nat) a + S192x128.size a ≤ S192x128.size a
  h_S192x128 : 0 < S192x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  gather_S50000x192_S400000x1_S400000x192_1_0_n_n_0_1_1192_wf : GatherDims.WF S50000x192 S400000x1 S400000x192 [1] [0] [] [0] [] 1 ![1, 192]
  scatter_S50000x192_S400000x1_S400000x192_1_0_0_1_wf : ScatterDims.WF S50000x192 S400000x1 S400000x192 [1] [0] [0] 1
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  dot_S2000x192_S192x128_S2000x128_1_0_0_1_n_n_wf : DotDims.WF S2000x192 S192x128 S2000x128 [1] [0] [0] [1] [] []
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x192.size a ≤ S50000x192.size a
  hwx0_0 : ∀ i : grid0.Coords, EltTy.bits .f32 = 32 ∨ (Rect.block (s := S50000x192) S2000x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x128.size a ≤ S192x128.size a
  hwx0_2 : ∀ i : grid0.Coords, EltTy.bits .f32 = 32 ∨ (Rect.block (s := S192x128) S192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x192_S400000x1_S400000x192_1_0_n_n_0_1_1192 : GatherDims S50000x192 S400000x1 S400000x192 where
  offsetDims := [1]
  collapsedSliceDims := [0]
  operandBatchingDims := []
  startIndicesBatchingDims := []
  startIndexMap := [0]
  indexVectorDim := 1
  sliceSizes := ![1, 192]
  wf := gather_S50000x192_S400000x1_S400000x192_1_0_n_n_0_1_1192_wf
def scatter_S50000x192_S400000x1_S400000x192_1_0_0_1 : ScatterDims S50000x192 S400000x1 S400000x192 where
  updateWindowDims := [1]
  insertedWindowDims := [0]
  scatterDimsToOperandDims := [0]
  indexVectorDim := 1
  wf := scatter_S50000x192_S400000x1_S400000x192_1_0_0_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S2000x192_S192x128_S2000x128_1_0_0_1_n_n : DotDims S2000x192 S192x128 S2000x128 where
  lhsContracting := [1]
  rhsContracting := [0]
  lhsNonContracting := [0]
  rhsNonContracting := [1]
  lhsBatch := []
  rhsBatch := []
  wf := dot_S2000x192_S192x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_v18) S2000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v32) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg18) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg19) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg20) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S2x400000 : Shape := ⟨2, ![2, 400000]⟩
abbrev S_ : Shape := ⟨0, ![]⟩
abbrev S192x128 : Shape := ⟨2, ![192, 128]⟩
abbrev S128 : Shape := ⟨1, ![128]⟩
abbrev S128x128 : Shape := ⟨2, ![128, 128]⟩
abbrev S64x128 : Shape := ⟨2, ![64, 128]⟩
abbrev S1x400000 : Shape := ⟨2, ![1, 400000]⟩
abbrev S400000 : Shape := ⟨1, ![400000]⟩
abbrev S50000x192 : Shape := ⟨2, ![50000, 192]⟩
abbrev S400000x1 : Shape := ⟨2, ![400000, 1]⟩
abbrev S400000x192 : Shape := ⟨2, ![400000, 192]⟩
abbrev S1x128 : Shape := ⟨2, ![1, 128]⟩
abbrev S50000 : Shape := ⟨1, ![50000]⟩
abbrev S50000x1 : Shape := ⟨2, ![50000, 1]⟩
abbrev S400000x64 : Shape := ⟨2, ![400000, 64]⟩

abbrev nBuf : Space → Nat
  | .hbm => 207
  | .vmem => 0
  | .smem => 0
  | _ => 0

abbrev hbmTy0_0 (i : Nat) : BufTy := match i % 128 with
  | 0 => ⟨S50000x128, .f32⟩
  | 1 => ⟨S50000x64, .f32⟩
  | 2 => ⟨S2x400000, .i32⟩
  | 3 => ⟨S_, .f32⟩
  | 4 => ⟨S192x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S_, .f32⟩
  | 13 => ⟨S64x128, .f32⟩
  | 14 => ⟨S128, .f32⟩
  | 15 => ⟨S128, .f32⟩
  | 16 => ⟨S128, .f32⟩
  | 17 => ⟨S128x128, .f32⟩
  | 18 => ⟨S128, .f32⟩
  | 19 => ⟨S128, .f32⟩
  | 20 => ⟨S128, .f32⟩
  | 21 => ⟨S1x400000, .i32⟩
  | 22 => ⟨S400000, .i32⟩
  | 23 => ⟨S1x400000, .i32⟩
  | 24 => ⟨S400000, .i32⟩
  | 25 => ⟨S50000x192, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x192, .f32⟩
  | 35 => ⟨S_, .f32⟩
  | 36 => ⟨S50000x192, .f32⟩
  | 37 => ⟨S400000x1, .i32⟩
  | 38 => ⟨S50000x192, .f32⟩
  | 39 => ⟨S_, .f32⟩
  | 40 => ⟨S_, .f32⟩
  | 41 => ⟨S50000x192, .f32⟩
  | 42 => ⟨S50000x192, .f32⟩
  | 43 => ⟨S50000x192, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S50000x128, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S_, .f32⟩
  | 66 => ⟨S50000x1, .f32⟩
  | 67 => ⟨S50000x1, .f32⟩
  | 68 => ⟨S50000x1, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000, .f32⟩
  | 86 => ⟨S50000x1, .f32⟩
  | 87 => ⟨S_, .f32⟩
  | 88 => ⟨S50000x1, .f32⟩
  | 89 => ⟨S50000x1, .f32⟩
  | 90 => ⟨S50000x128, .f32⟩
  | 91 => ⟨S50000x128, .f32⟩
  | 92 => ⟨S50000x128, .f32⟩
  | 93 => ⟨S_, .f32⟩
  | 94 => ⟨S50000, .f32⟩
  | 95 => ⟨S50000x1, .f32⟩
  | 96 => ⟨S_, .f32⟩
  | 97 => ⟨S50000x1, .f32⟩
  | 98 => ⟨S50000x1, .f32⟩
  | 99 => ⟨S50000x128, .f32⟩
  | 100 => ⟨S50000x128, .f32⟩
  | 101 => ⟨S_, .f32⟩
  | 102 => ⟨S50000x1, .f32⟩
  | 103 => ⟨S50000x1, .f32⟩
  | 104 => ⟨S50000x1, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .i32⟩
  | 117 => ⟨S400000, .i32⟩
  | 118 => ⟨S400000, .i1⟩
  | 119 => ⟨S_, .i32⟩
  | 120 => ⟨S400000, .i32⟩
  | 121 => ⟨S400000, .i32⟩
  | 122 => ⟨S400000, .i32⟩
  | 123 => ⟨S400000x1, .i32⟩
  | 124 => ⟨S400000x64, .f32⟩
  | 125 => ⟨S_, .f32⟩
  | 126 => ⟨S50000x64, .f32⟩
  | 127 => ⟨S400000x1, .i32⟩
  | _ => ⟨S50000x128, .f32⟩

abbrev hbmTy0_1 (i : Nat) : BufTy := match i % 128 with
  | 0 => ⟨S50000x64, .f32⟩
  | 1 => ⟨S_, .f32⟩
  | 2 => ⟨S_, .f32⟩
  | 3 => ⟨S50000x64, .f32⟩
  | 4 => ⟨S50000x64, .f32⟩
  | 5 => ⟨S50000x64, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000, .f32⟩
  | 12 => ⟨S50000x1, .f32⟩
  | 13 => ⟨S_, .f32⟩
  | 14 => ⟨S50000x1, .f32⟩
  | 15 => ⟨S50000x1, .f32⟩
  | 16 => ⟨S50000x128, .f32⟩
  | 17 => ⟨S50000x128, .f32⟩
  | 18 => ⟨S50000x128, .f32⟩
  | 19 => ⟨S_, .f32⟩
  | 20 => ⟨S50000, .f32⟩
  | 21 => ⟨S50000x1, .f32⟩
  | 22 => ⟨S_, .f32⟩
  | 23 => ⟨S50000x1, .f32⟩
  | 24 => ⟨S50000x1, .f32⟩
  | 25 => ⟨S50000x128, .f32⟩
  | 26 => ⟨S50000x128, .f32⟩
  | 27 => ⟨S_, .f32⟩
  | 28 => ⟨S50000x1, .f32⟩
  | 29 => ⟨S50000x1, .f32⟩
  | 30 => ⟨S50000x1, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x128, .f32⟩
  | 53 => ⟨S50000x128, .f32⟩
  | 54 => ⟨S50000x128, .f32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S_, .f32⟩
  | 64 => ⟨S50000x1, .f32⟩
  | 65 => ⟨S50000x1, .f32⟩
  | 66 => ⟨S50000x1, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call0_cst : Ref sig .tc := ⟨.hbm, 77, rfl⟩
abbrev main_call0_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_cst_8 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_cst_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_11 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call1_cst : Ref sig .tc := ⟨.hbm, 113, rfl⟩
abbrev main_call1_v0 : Ref sig .tc := ⟨.hbm, 114, rfl⟩
abbrev main_v76 : Ref sig .tc := ⟨.hbm, 115, rfl⟩
abbrev main_c_12 : Ref sig .tc := ⟨.hbm, 116, rfl⟩
abbrev main_v77 : Ref sig .tc := ⟨.hbm, 117, rfl⟩
abbrev main_v78 : Ref sig .tc := ⟨.hbm, 118, rfl⟩
abbrev main_c_13 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_14 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_15 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_16 : Ref sig .tc := ⟨.hbm, 138, rfl⟩
abbrev main_v95 : Ref sig .tc := ⟨.hbm, 139, rfl⟩
abbrev main_v96 : Ref sig .tc := ⟨.hbm, 140, rfl⟩
abbrev main_cst_17 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_v103 : Ref sig .tc := ⟨.hbm, 149, rfl⟩
abbrev main_cst_19 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_20 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_call2_cst : Ref sig .tc := ⟨.hbm, 167, rfl⟩
abbrev main_call2_v0 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_21 : Ref sig .tc := ⟨.hbm, 174, rfl⟩
abbrev main_v124 : Ref sig .tc := ⟨.hbm, 175, rfl⟩
abbrev main_v125 : Ref sig .tc := ⟨.hbm, 176, rfl⟩
abbrev main_cst_22 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_23 : Ref sig .tc := ⟨.hbm, 183, rfl⟩
abbrev main_v131 : Ref sig .tc := ⟨.hbm, 184, rfl⟩
abbrev main_v132 : Ref sig .tc := ⟨.hbm, 185, rfl⟩
abbrev main_cst_24 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_25 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_call3_cst : Ref sig .tc := ⟨.hbm, 203, rfl⟩
abbrev main_call3_v0 : Ref sig .tc := ⟨.hbm, 204, rfl⟩
abbrev main_v148 : Ref sig .tc := ⟨.hbm, 205, rfl⟩
abbrev main_v149 : Ref sig .tc := ⟨.hbm, 206, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S50000x128_S50000x64_S50000x192_d1 : Shape.Concatenates [S50000x128, S50000x64] S50000x192 1
  bcast_S_S400000 : S_.BroadcastsInDim S400000 (![] : Fin 0 → Fin S400000.rank)
  bcast_S400000_S400000x1_0 : S400000.BroadcastsInDim S400000x1 (![0] : Fin 1 → Fin S400000x1.rank)
  bcast_S_S50000x192 : S_.BroadcastsInDim S50000x192 (![] : Fin 0 → Fin S50000x192.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S_S50000x64 : S_.BroadcastsInDim S50000x64 (![] : Fin 0 → Fin S50000x64.rank)
  gather_S50000x192_S400000x1_S400000x192_1_0_n_n_0_1_1192_wf : GatherDims.WF S50000x192 S400000x1 S400000x192 [1] [0] [] [0] [] 1 ![1, 192]
  scatter_S50000x192_S400000x1_S400000x192_1_0_0_1_wf : ScatterDims.WF S50000x192 S400000x1 S400000x192 [1] [0] [0] 1
  dot_S50000x192_S192x128_S50000x128_1_0_0_1_n_n_wf : DotDims.WF S50000x192 S192x128 S50000x128 [1] [0] [0] [1] [] []
  dot_S50000x128_S128x128_S50000x128_1_0_0_1_n_n_wf : DotDims.WF S50000x128 S128x128 S50000x128 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  dot_S50000x64_S64x128_S50000x128_1_0_0_1_n_n_wf : DotDims.WF S50000x64 S64x128 S50000x128 [1] [0] [0] [1] [] []

variable [Facts₀]

def gather_S50000x192_S400000x1_S400000x192_1_0_n_n_0_1_1192 : GatherDims S50000x192 S400000x1 S400000x192 where
  offsetDims := [1]
  collapsedSliceDims := [0]
  operandBatchingDims := []
  startIndicesBatchingDims := []
  startIndexMap := [0]
  indexVectorDim := 1
  sliceSizes := ![1, 192]
  wf := gather_S50000x192_S400000x1_S400000x192_1_0_n_n_0_1_1192_wf
def scatter_S50000x192_S400000x1_S400000x192_1_0_0_1 : ScatterDims S50000x192 S400000x1 S400000x192 where
  updateWindowDims := [1]
  insertedWindowDims := [0]
  scatterDimsToOperandDims := [0]
  indexVectorDim := 1
  wf := scatter_S50000x192_S400000x1_S400000x192_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KernelRun.lean ====
/-
  The kernel program's run, with both results named.

  The program is a stretch of host operations followed by two tiled regions. Its run ends with every buffer the regions
  do not scope at the contents obtained by folding the three segments over the launch memory. Reading that fold at the
  two result buffers: the feature result is what the first region's write-backs leave in its output array (the second
  region does not touch it), the position result what the second region's leave; the arguments are as launched.
-/
import proofs.«113962_j36283883716971_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The feature result's buffer is the first region's output array, which the second region leaves alone: it ends at
    what the first region's write-backs leave. -/
theorem res_feat (c : Dev nD) :
    W3 m ρ c (Proc.devRef .tc main_v33) = (dat0 (V1 m ρ) c).arrAt 10 cfg0.N :=
  (W3_of_ne m ρ c main_v33 (by decide)).trans (W2_arr m ρ c 10)

/-- The position result's buffer is the second region's output array. -/
theorem res_pos (c : Dev nD) :
    W3 m ρ c (Proc.devRef .tc main_v34) = (dat1 (V2 m ρ) c).arrAt 9 cfg1.N :=
  W3_arr m ρ c 9

set_option backward.isDefEq.respectTransparency.types false in
/-- Every weakly fair execution of the program terminates without a fault, the two results at what the regions'
    write-backs leave and every argument as launched. -/
theorem run_named : θ_run defs (onTc (τ := τ) (main (F := F))) ⟨m, fun _ => 0, ρ⟩ (fun r => ∀ c : Dev nD,
      r.2.mem ((c.tc : Thread nD τ).loc main_v33) = (dat0 (V1 m ρ) c).arrAt 10 cfg0.N
      ∧ r.2.mem ((c.tc : Thread nD τ).loc main_v34) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v33 (by decide))).trans (res_feat m ρ c),
       (h c _ (mem_uc main_v34 (by decide))).trans (res_pos m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c),
       (h c _ (mem_uc main_arg17 (by decide))).trans (W3_main_arg17 m ρ c),
       (h c _ (mem_uc main_arg18 (by decide))).trans (W3_main_arg18 m ρ c),
       (h c _ (mem_uc main_arg19 (by decide))).trans (W3_main_arg19 m ρ c),
       (h c _ (mem_uc main_arg20 (by decide))).trans (W3_main_arg20 m ρ c)⟩)

end Cert.KernelIdeal.Whole

end
-- ==== Proof.RowSpec.lean ====
/-
  The mathematics of one node's update, on one row at a time.

  A node's result is a function of that node's aggregated feature row alone: a dense layer (row times weight matrix plus
  bias), a layer normalisation over the 128 features, a rectifier, a second dense layer, a second layer normalisation, a
  rectifier, and for the feature branch the node's own input row added back. Nothing couples two rows, so the whole-array
  result is this row function applied to every row, whatever the tiling of the rows.

  Everything is stated on the extended reals with the exact operations: sums are plain finite sums, the quotient and the
  square root are the extended-real ones, and the three float words (128, the variance offset 1e-5 as the f32 nearest to
  it, and zero) stay the words they are.
-/
import Idealize.ShloMosaic.PureOps.Ideal
import Idealize.ShloMosaic.Lib.ValueIdx

noncomputable section

namespace Cert.Gin

open Idealize.ShloMosaic Idealize.ShloMosaic.ValueIdx
open scoped BigOperators

/-- The feature count 128 as the f32 word the programs divide by. -/
abbrev w128 : EReal := Ideal.ofBits .f32 0x43000000#32
/-- The variance offset: the f32 word nearest to 1e-5. -/
abbrev wEps : EReal := Ideal.ofBits .f32 0x3727C5AC#32
/-- The f32 zero word. -/
abbrev wZero : EReal := Ideal.ofBits .f32 0x00000000#32

/-- The mean of a row of 128 features: their sum divided by 128. -/
def rowMean (v : Fin 128 → EReal) : EReal := Ideal.div (∑ k : Fin 128, v k) w128

/-- The (biased) variance of a row: the mean of the squared deviations from the row's mean. -/
def rowVar (v : Fin 128 → EReal) : EReal :=
  Ideal.div (∑ k : Fin 128, (v k - rowMean v) * (v k - rowMean v)) w128

/-- Layer normalisation of a row at feature `j`: the deviation from the mean over the square root of the offset
    variance, scaled by `g` and shifted by `b`. -/
def lnRow (v g b : Fin 128 → EReal) (j : Fin 128) : EReal :=
  Ideal.div (v j - rowMean v) (Ideal.sqrt (rowVar v + wEps)) * g j + b j

/-- A dense layer on a row of `K` features: the row times the `K × 128` weight matrix, plus the bias. -/
def denseRow {K : Nat} (r : Fin K → EReal) (W : Fin K → Fin 128 → EReal) (b : Fin 128 → EReal) (j : Fin 128) : EReal :=
  (∑ k : Fin K, r k * W k j) + b j

/-- The rectifier against the zero word. -/
def relu (x : EReal) : EReal := max x wZero

/-- The two-layer network on one aggregated row: dense, normalise, rectify, dense, normalise, rectify. -/
def mlpRow {K : Nat} (r : Fin K → EReal) (W1 : Fin K → Fin 128 → EReal) (b1 g1 be1 : Fin 128 → EReal)
    (W2 : Fin 128 → Fin 128 → EReal) (b2 g2 be2 : Fin 128 → EReal) (j : Fin 128) : EReal :=
  relu (lnRow (denseRow (fun l => relu (lnRow (denseRow r W1 b1) g1 be1 l)) W2 b2) g2 be2 j)

/-- The feature branch over the whole node set: row `i 0` of the aggregated features through the network, plus the
    node's own input feature. -/
def featOut (h0 : (⟨2, ![50000, 192]⟩ : Shape).Idx → EReal) (x : (⟨2, ![50000, 128]⟩ : Shape).Idx → EReal)
    (W1 : (⟨2, ![192, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal) :
    (⟨2, ![50000, 128]⟩ : Shape).Idx → EReal := fun i =>
  mlpRow (fun k : Fin 192 => h0 (ix2 (i 0) k)) (fun k j => W1 (ix2 k j)) (fun j => b1 (ix1 j)) (fun j => g1 (ix1 j))
    (fun j => be1 (ix1 j)) (fun k j => W2 (ix2 k j)) (fun j => b2 (ix1 j)) (fun j => g2 (ix1 j)) (fun j => be2 (ix1 j)) (i 1)
  + x (ix2 (i 0) (i 1))

/-- The position branch over the whole node set: row `i 0` of the aggregated positions through its own network. -/
def posOut (p0 : (⟨2, ![50000, 64]⟩ : Shape).Idx → EReal)
    (W1 : (⟨2, ![64, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal) :
    (⟨2, ![50000, 128]⟩ : Shape).Idx → EReal := fun i =>
  mlpRow (fun k : Fin 64 => p0 (ix2 (i 0) k)) (fun k j => W1 (ix2 k j)) (fun j => b1 (ix1 j)) (fun j => g1 (ix1 j))
    (fun j => be1 (ix1 j)) (fun k j => W2 (ix2 k j)) (fun j => b2 (ix1 j)) (fun j => g2 (ix1 j)) (fun j => be2 (ix1 j)) (i 1)

/-- The feature branch at an index whose row of aggregated features, input feature and feature number are known. -/
theorem featOut_row (h0 : (⟨2, ![50000, 192]⟩ : Shape).Idx → EReal) (x : (⟨2, ![50000, 128]⟩ : Shape).Idx → EReal)
    (W1 : (⟨2, ![192, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (i : (⟨2, ![50000, 128]⟩ : Shape).Idx) (r : Fin 192 → EReal) (xr : EReal) (q : Fin 128)
    (hr : ∀ k : Fin 192, h0 (ix2 (i 0) k) = r k) (hx : x (ix2 (i 0) (i 1)) = xr) (hq : i 1 = q) :
    featOut h0 x W1 b1 g1 be1 W2 b2 g2 be2 i
      = mlpRow r (fun k j => W1 (ix2 k j)) (fun j => b1 (ix1 j)) (fun j => g1 (ix1 j)) (fun j => be1 (ix1 j))
          (fun k j => W2 (ix2 k j)) (fun j => b2 (ix1 j)) (fun j => g2 (ix1 j)) (fun j => be2 (ix1 j)) q + xr := by
  subst hq
  unfold featOut
  rw [show (fun k : Fin 192 => h0 (ix2 (i 0) k)) = r from funext hr, hx]

/-- The position branch at an index whose row of aggregated positions and feature number are known. -/
theorem posOut_row (p0 : (⟨2, ![50000, 64]⟩ : Shape).Idx → EReal)
    (W1 : (⟨2, ![64, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (i : (⟨2, ![50000, 128]⟩ : Shape).Idx) (r : Fin 64 → EReal) (q : Fin 128)
    (hr : ∀ k : Fin 64, p0 (ix2 (i 0) k) = r k) (hq : i 1 = q) :
    posOut p0 W1 b1 g1 be1 W2 b2 g2 be2 i
      = mlpRow r (fun k j => W1 (ix2 k j)) (fun j => b1 (ix1 j)) (fun j => g1 (ix1 j)) (fun j => be1 (ix1 j))
          (fun k j => W2 (ix2 k j)) (fun j => b2 (ix1 j)) (fun j => g2 (ix1 j)) (fun j => be2 (ix1 j)) q := by
  subst hq
  unfold posOut
  rw [show (fun k : Fin 64 => p0 (ix2 (i 0) k)) = r from funext hr]

end Cert.Gin

end
-- ==== Proof.BlockLayerNorm.lean ====
/-
  Layer normalisation of a block of 2000 rows, read one row at a time.

  The kernel body normalises a [2000, 128] block with whole-block vector operations: a sum along the lanes, a cast of the
  2000 sums to a column, a division by 128, the column broadcast back along the lanes, and so on. Read at row `p` and
  feature `q` every one of these touches row `p` only, so the block operation is the row function `Cert.Gin.lnRow` of
  row `p`. The two column-shaped layout steps (a vector made a column, a column broadcast along the rows) are read at an
  index first.
-/
import proofs.«113962_j36283883716971_1_alg».proof.KernelIdeal
import proofs.«113962_j36283883716971_1_alg».proof.Proof.Gen.KernelIdeal
import proofs.«113962_j36283883716971_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Cert.KernelIdeal Cert.KernelIdeal.Facts₀ Idealize.ShloMosaic Idealize.ShloMosaic.ValueIdx Cert.Gin
open scoped BigOperators

/-- A length-`a` vector cast to a column `[a, 1]` reads, at `(p, u)`, the vector at `p`. -/
theorem colCast_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, c)`, the column at `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a block at row `p`: the sum of the row's 128 entries. -/
theorem rowSum_apply (v : FVec Ideal S2000x128 .f32) (p : Fin 2000) :
    multiReduction (F := Ideal) .add [1] S2000 v 0x00000000#32 reduces_S2000x128_S2000 (.inl rfl) rfl (ix1 p)
      = ∑ k : Fin 128, v (ix2 p k) := by
  refine (Ideal.multiReduction_add_single v 0x00000000#32 reduces_S2000x128_S2000 (.inl rfl) rfl (ix1 p)).trans ?_
  refine Finset.sum_congr rfl fun k _ => ?_
  exact congrArg v (funext fun a => Fin.ext (by match a with | ⟨0, _⟩ => rfl | ⟨1, _⟩ => rfl))

/-- The column of row means of a block: lane sums, as a column, over 128. -/
def meanCol (v : FVec Ideal S2000x128 .f32) : FVec Ideal S2000x1 .f32 :=
  divf (shapeCast S2000x1 (multiReduction (F := Ideal) .add [1] S2000 v 0x00000000#32 reduces_S2000x128_S2000 (.inl rfl) rfl) shapeCasts_S2000_S2000x1)
    (broadcast S2000x1 (Scalar.ofBits .f32 0x43000000#32))

/-- The block with each row's mean taken off. -/
def centred (v : FVec Ideal S2000x128 .f32) : FVec Ideal S2000x128 .f32 :=
  subf v (broadcastTo S2000x128 (meanCol v) broadcasts_S2000x1_S2000x128)

/-- The column of row variances: lane sums of the squared deviations, as a column, over 128. -/
def varCol (v : FVec Ideal S2000x128 .f32) : FVec Ideal S2000x1 .f32 :=
  divf (shapeCast S2000x1 (multiReduction (F := Ideal) .add [1] S2000 (mulf (centred v) (centred v)) 0x00000000#32 reduces_S2000x128_S2000 (.inl rfl) rfl) shapeCasts_S2000_S2000x1)
    (broadcast S2000x1 (Scalar.ofBits .f32 0x43000000#32))

/-- The body's layer normalisation of a block, operation for operation. -/
def lnBlk (v : FVec Ideal S2000x128 .f32) (g b : Vec Ideal S128 .f32) : FVec Ideal S2000x128 .f32 :=
  addf (mulf (divf (centred v)
        (broadcastTo S2000x128 (sqrt (addf (varCol v) (broadcast S2000x1 (Scalar.ofBits .f32 0x3727C5AC#32)))) broadcasts_S2000x1_S2000x128))
      (broadcastTo S2000x128 (shapeCast S1x128 g shapeCasts_S128_S1x128) broadcasts_S1x128_S2000x128))
    (broadcastTo S2000x128 (shapeCast S1x128 b shapeCasts_S128_S1x128) broadcasts_S1x128_S2000x128)

theorem meanCol_apply (v : FVec Ideal S2000x128 .f32) (p : Fin 2000) (u : Fin 1) :
    meanCol v (ix2 p u) = rowMean (fun k => v (ix2 p k)) := by
  unfold meanCol rowMean
  rw [divf_apply, colCast_apply, rowSum_apply, broadcast_apply]
  rfl

theorem centred_apply (v : FVec Ideal S2000x128 .f32) (p : Fin 2000) (q : Fin 128) :
    centred v (ix2 p q) = v (ix2 p q) - rowMean (fun k => v (ix2 p k)) := by
  unfold centred
  rw [subf_apply, colBroadcast_apply, meanCol_apply]

theorem varCol_apply (v : FVec Ideal S2000x128 .f32) (p : Fin 2000) (u : Fin 1) :
    varCol v (ix2 p u) = rowVar (fun k => v (ix2 p k)) := by
  unfold varCol rowVar
  rw [divf_apply, colCast_apply, rowSum_apply, broadcast_apply]
  refine congrArg (fun s => Ideal.div s _) (Finset.sum_congr rfl fun k _ => ?_)
  rw [mulf_apply, centred_apply]

/-- The body's layer normalisation of a block at row `p`, feature `q`, is the row function of row `p`. -/
theorem lnBlk_apply (v : FVec Ideal S2000x128 .f32) (g b : Vec Ideal S128 .f32) (p : Fin 2000) (q : Fin 128) :
    lnBlk v g b (ix2 p q) = lnRow (fun k => v (ix2 p k)) (fun k => g (ix1 k)) (fun k => b (ix1 k)) q := by
  unfold lnBlk lnRow
  rw [addf_apply, mulf_apply, divf_apply, centred_apply, colBroadcast_apply,
    broadcastTo_1b_ab_apply, broadcastTo_1b_ab_apply, shapeCast_a_1a_apply, shapeCast_a_1a_apply]
  show Ideal.div _ (Ideal.sqrt (varCol v (ix2 p (0 : Fin 1)) + _)) * _ + _ = _
  rw [varCol_apply]
  rfl

end Cert.KernelIdeal.Blk

end
-- ==== Proof.BlockDense.lean ====
/-
  The dense layers of a block of 2000 rows, read one row at a time.

  A dense layer in the kernel body is a block product into a zero accumulator — both factors first narrowed to bf16, which
  on the extended reals changes nothing — followed by the bias row broadcast down the 2000 rows and added. At row `p`,
  column `q` the product is row `p` of the left block against column `q` of the weights, so the layer is the row
  function `Cert.Gin.denseRow` of row `p`. The three products of the two bodies differ only in the contracted length
  (192, 128, 64).
-/
import proofs.«113962_j36283883716971_1_alg».proof.KernelIdeal
import proofs.«113962_j36283883716971_1_alg».proof.Proof.Gen.KernelIdeal
import proofs.«113962_j36283883716971_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Cert.KernelIdeal Cert.KernelIdeal.Facts₀ Idealize.ShloMosaic Idealize.ShloMosaic.ValueIdx Cert.Gin
open scoped BigOperators

/-! ### The [2000, 192] × [192, 128] product -/

theorem lhs192_0 (i : S2000x128.Idx) (q : dot_S2000x192_S192x128_S2000x128_1_0_0_1_n_n.contr.Idx) : (dot_S2000x192_S192x128_S2000x128_1_0_0_1_n_n.lhsIdx i q 0).val = (i 0).val := by
  unfold DotDims.lhsIdx
  rw [dif_neg (show ¬(0 : Fin S2000x192.rank) ∈ dot_S2000x192_S192x128_S2000x128_1_0_0_1_n_n.lhsBatch by decide), dif_pos (show (0 : Fin S2000x192.rank) ∈ dot_S2000x192_S192x128_S2000x128_1_0_0_1_n_n.lhsNonContracting by decide)]
  rfl
theorem lhs192_1 (i : S2000x128.Idx) (q : dot_S2000x192_S192x128_S2000x128_1_0_0_1_n_n.contr.Idx) : (dot_S2000x192_S192x128_S2000x128_1_0_0_1_n_n.lhsIdx i q 1).val = (q ⟨0, by decide⟩).val :=
  dot_S2000x192_S192x128_S2000x128_1_0_0_1_n_n.lhsIdx_val_of_single rfl i q
theorem rhs192_0 (i : S2000x128.Idx) (q : dot_S2000x192_S192x128_S2000x128_1_0_0_1_n_n.contr.Idx) : (dot_S2000x192_S192x128_S2000x128_1_0_0_1_n_n.rhsIdx i q 0).val = (q ⟨0, by decide⟩).val :=
  dot_S2000x192_S192x128_S2000x128_1_0_0_1_n_n.rhsIdx_val_of_single rfl i q
theorem rhs192_1 (i : S2000x128.Idx) (q : dot_S2000x192_S192x128_S2000x128_1_0_0_1_n_n.contr.Idx) : (dot_S2000x192_S192x128_S2000x128_1_0_0_1_n_n.rhsIdx i q 1).val = (i 1).val := by
  unfold DotDims.rhsIdx
  rw [dif_neg (show ¬(1 : Fin S192x128.rank) ∈ dot_S2000x192_S192x128_S2000x128_1_0_0_1_n_n.rhsBatch by decide), dif_pos (show (1 : Fin S192x128.rank) ∈ dot_S2000x192_S192x128_S2000x128_1_0_0_1_n_n.rhsNonContracting by decide)]
  rfl

/-- The block product into a zero accumulator at row `p`, column `q`: row `p` of the left block against column `q` of
    the right one, summed over the 192 contracted positions. -/
theorem mm192_apply (x : FVec Ideal S2000x192 .bf16) (w : FVec Ideal S192x128 .bf16) (p : Fin 2000) (q : Fin 128) :
    matmul dot_S2000x192_S192x128_S2000x128_1_0_0_1_n_n none x w (constant (F := Ideal) S2000x128 .f32 0x00000000#32) (ix2 p q)
      = ∑ k : Fin 192, x (ix2 p k) * w (ix2 k q) := by
  simp only [matmul]
  rw [Ideal.matmul_constant_zero_apply, ← Equiv.sum_comp (ValueIdx.contrEquiv1 dot_S2000x192_S192x128_S2000x128_1_0_0_1_n_n 192 rfl rfl).symm]
  refine Finset.sum_congr rfl fun k _ => ?_
  have hk := ValueIdx.contrEquiv1_symm_val dot_S2000x192_S192x128_S2000x128_1_0_0_1_n_n 192 rfl rfl k
  have el : dot_S2000x192_S192x128_S2000x128_1_0_0_1_n_n.lhsIdx (ix2 p q) ((ValueIdx.contrEquiv1 dot_S2000x192_S192x128_S2000x128_1_0_0_1_n_n 192 rfl rfl).symm k) = ix2 p k := funext fun a => Fin.ext (by
    match a with
    | ⟨0, _⟩ => exact lhs192_0 _ _
    | ⟨1, _⟩ => exact (lhs192_1 _ _).trans hk)
  have er : dot_S2000x192_S192x128_S2000x128_1_0_0_1_n_n.rhsIdx (ix2 p q) ((ValueIdx.contrEquiv1 dot_S2000x192_S192x128_S2000x128_1_0_0_1_n_n 192 rfl rfl).symm k) = ix2 k q := funext fun a => Fin.ext (by
    match a with
    | ⟨0, _⟩ => exact (rhs192_0 _ _).trans hk
    | ⟨1, _⟩ => exact rhs192_1 _ _)
  rw [el, er]

/-! ### The [2000, 128] × [128, 128] product -/

theorem lhs128_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator at row `p`, column `q`: row `p` of the left block against column `q` of
    the right one, summed over the 128 contracted positions. -/
theorem mm128_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The [2000, 64] × [64, 128] product -/

theorem lhs64_0 (i : S2000x128.Idx) (q : dot_S2000x64_S64x128_S2000x128_1_0_0_1_n_n.contr.Idx) : (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs64_1 (i : S2000x128.Idx) (q : dot_S2000x64_S64x128_S2000x128_1_0_0_1_n_n.contr.Idx) : (dot_S2000x64_S64x128_S2000x128_1_0_0_1_n_n.lhsIdx i q 1).val = (q ⟨0, by decide⟩).val :=
  dot_S2000x64_S64x128_S2000x128_1_0_0_1_n_n.lhsIdx_val_of_single rfl i q
theorem rhs64_0 (i : S2000x128.Idx) (q : dot_S2000x64_S64x128_S2000x128_1_0_0_1_n_n.contr.Idx) : (dot_S2000x64_S64x128_S2000x128_1_0_0_1_n_n.rhsIdx i q 0).val = (q ⟨0, by decide⟩).val :=
  dot_S2000x64_S64x128_S2000x128_1_0_0_1_n_n.rhsIdx_val_of_single rfl i q
theorem rhs64_1 (i : S2000x128.Idx) (q : dot_S2000x64_S64x128_S2000x128_1_0_0_1_n_n.contr.Idx) : (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The block product into a zero accumulator at row `p`, column `q`: row `p` of the left block against column `q` of
    the right one, summed over the 64 contracted positions. -/
theorem mm64_apply (x : FVec Ideal S2000x64 .bf16) (w : FVec Ideal S64x128 .bf16) (p : Fin 2000) (q : Fin 128) :
    matmul dot_S2000x64_S64x128_S2000x128_1_0_0_1_n_n none x w (constant (F := Ideal) S2000x128 .f32 0x00000000#32) (ix2 p q)
      = ∑ k : Fin 64, x (ix2 p k) * w (ix2 k q) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun a => Fin.ext (by
    match a with
    | ⟨0, _⟩ => exact lhs64_0 _ _
    | ⟨1, _⟩ => exact (lhs64_1 _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### Bias, rectifier, and the layers -/

/-- A bias row added to every row of a block. -/
def biasBlk (v : FVec Ideal S2000x128 .f32) (b : Vec Ideal S128 .f32) : FVec Ideal S2000x128 .f32 :=
  addf v (broadcastTo S2000x128 (shapeCast S1x128 b shapeCasts_S128_S1x128) broadcasts_S1x128_S2000x128)

theorem biasBlk_apply (v : FVec Ideal S2000x128 .f32) (b : Vec Ideal S128 .f32) (p : Fin 2000) (q : Fin 128) :
    biasBlk v b (ix2 p q) = v (ix2 p q) + b (ix1 q) := by
  unfold biasBlk
  rw [addf_apply, broadcastTo_1b_ab_apply, shapeCast_a_1a_apply]

/-- The rectifier of a block against the zero word. -/
def reluBlk (v : FVec Ideal S2000x128 .f32) : FVec Ideal S2000x128 .f32 :=
  maximumf v (broadcast S2000x128 (Scalar.ofBits (F := Ideal) .f32 0x00000000#32))

theorem reluBlk_apply (v : FVec Ideal S2000x128 .f32) (i : S2000x128.Idx) : reluBlk v i = relu (v i) := rfl

/-- The first layer's product of the feature branch: the loaded [2000, 192] block against the [192, 128] weights. -/
def mmIn192 (x0 : Vec Ideal S2000x192 .f32) (w : Vec Ideal S192x128 .f32) : FVec Ideal S2000x128 .f32 :=
  matmul dot_S2000x192_S192x128_S2000x128_1_0_0_1_n_n none
    (truncf .bf16 (shapeCast S2000x192 x0 shapeCasts_S2000x192_S2000x192) bitsLt_bf16_f32) (truncf .bf16 w bitsLt_bf16_f32)
    (constant (F := Ideal) S2000x128 .f32 0x00000000#32)

/-- The first layer's product of the position branch: the loaded [2000, 64] block against the [64, 128] weights. -/
def mmIn64 (x0 : Vec Ideal S2000x64 .f32) (w : Vec Ideal S64x128 .f32) : FVec Ideal S2000x128 .f32 :=
  matmul dot_S2000x64_S64x128_S2000x128_1_0_0_1_n_n none
    (truncf .bf16 (shapeCast S2000x64 x0 shapeCasts_S2000x64_S2000x64) bitsLt_bf16_f32) (truncf .bf16 w bitsLt_bf16_f32)
    (constant (F := Ideal) S2000x128 .f32 0x00000000#32)

/-- The second layer's product, of either branch: a computed [2000, 128] block against the [128, 128] weights. -/
def mmMid (v : FVec Ideal S2000x128 .f32) (w : Vec Ideal S128x128 .f32) : FVec Ideal S2000x128 .f32 :=
  matmul dot_S2000x128_S128x128_S2000x128_1_0_0_1_n_n none
    (truncf .bf16 v bitsLt_bf16_f32) (truncf .bf16 w bitsLt_bf16_f32)
    (constant (F := Ideal) S2000x128 .f32 0x00000000#32)

theorem mmIn192_apply (x0 : Vec Ideal S2000x192 .f32) (w : Vec Ideal S192x128 .f32) (p : Fin 2000) (q : Fin 128) :
    mmIn192 x0 w (ix2 p q) = ∑ k : Fin 192, x0 (ix2 p k) * w (ix2 k q) := by
  unfold mmIn192
  rw [mm192_apply, shapeCast_self]
  rfl

theorem mmIn64_apply (x0 : Vec Ideal S2000x64 .f32) (w : Vec Ideal S64x128 .f32) (p : Fin 2000) (q : Fin 128) :
    mmIn64 x0 w (ix2 p q) = ∑ k : Fin 64, x0 (ix2 p k) * w (ix2 k q) := by
  unfold mmIn64
  rw [mm64_apply, shapeCast_self]
  rfl

theorem mmMid_apply (v : FVec Ideal S2000x128 .f32) (w : Vec Ideal S128x128 .f32) (p : Fin 2000) (q : Fin 128) :
    mmMid v w (ix2 p q) = ∑ k : Fin 128, v (ix2 p k) * w (ix2 k q) := by
  unfold mmMid
  rw [mm128_apply]
  rfl

end Cert.KernelIdeal.Blk

end
-- ==== Proof.BlockPayload.lean ====
/-
  What one grid point's body computes, read one row at a time.

  The feature branch's body stores, for a block of 2000 rows, the second rectified normalisation plus the block of the
  node's own input features; the position branch's body stores the second rectified normalisation itself. Each is the
  composition of the block layers read in the two modules before this one, so at row `p`, feature `q` the stored value
  is the two-layer network `Cert.Gin.mlpRow` of row `p` of the loaded aggregate block (plus, for the feature branch,
  the input feature at the same place).
-/
import proofs.«113962_j36283883716971_1_alg».proof.Proof.Gen.KernelIdeal.Skeleton
import proofs.«113962_j36283883716971_1_alg».proof.Proof.BlockLayerNorm
import proofs.«113962_j36283883716971_1_alg».proof.Proof.BlockDense

noncomputable section

namespace Cert.KernelIdeal.Blk

open Cert.KernelIdeal Cert.KernelIdeal.Gen Idealize.ShloMosaic Idealize.ShloMosaic.ValueIdx Cert.Gin
open scoped BigOperators

/-- The feature body up to its second product: first layer, normalise, rectify, second product. -/
theorem featInner_eq (v0 : Vec Ideal S2000x192 .f32) (v2 : Vec Ideal S192x128 .f32) (v6 v10 v11 : Vec Ideal S128 .f32)
    (v38 : Vec Ideal S128x128 .f32) :
    k0_pay2 (F := Ideal) v0 v2 v6 v10 v11 v38 = mmMid (reluBlk (lnBlk (biasBlk (mmIn192 v0 v2) v6) v10 v11)) v38 := rfl

/-- The feature body from its second product to the stored value: bias, normalise, rectify, add the input block. -/
theorem featOuter_eq (v41 : FVec Ideal S2000x128 .f32) (v42 v46 v47 : Vec Ideal S128 .f32) (v74 : Vec Ideal S2000x128 .f32) :
    k0_pay1 (F := Ideal) v41 v42 v46 v47 v74 = addf (reluBlk (lnBlk (biasBlk v41 v42) v46 v47)) v74 := rfl

/-- The position body up to its second product. -/
theorem posInner_eq (v0 : Vec Ideal S2000x64 .f32) (v2 : Vec Ideal S64x128 .f32) (v6 v10 v11 : Vec Ideal S128 .f32)
    (v38 : Vec Ideal S128x128 .f32) :
    k1_pay2 (F := Ideal) v0 v2 v6 v10 v11 v38 = mmMid (reluBlk (lnBlk (biasBlk (mmIn64 v0 v2) v6) v10 v11)) v38 := rfl

/-- The position body from its second product to the stored value: bias, normalise, rectify. -/
theorem posOuter_eq (v41 : FVec Ideal S2000x128 .f32) (v42 v46 v47 : Vec Ideal S128 .f32) :
    k1_pay1 (F := Ideal) v41 v42 v46 v47 = reluBlk (lnBlk (biasBlk v41 v42) v46 v47) := rfl

/-- The feature body's stored value at row `p`, feature `q`: the network of row `p` of the aggregate block, plus the
    input feature there. -/
theorem featPay_apply (x0 : Vec Ideal S2000x192 .f32) (x1 : Vec Ideal S2000x128 .f32) (x2 : Vec Ideal S192x128 .f32)
    (x3 x4 x5 : Vec Ideal S128 .f32) (x6 : Vec Ideal S128x128 .f32) (x7 x8 x9 : Vec Ideal S128 .f32)
    (p : Fin 2000) (q : Fin 128) :
    k0_pay1 (F := Ideal) (k0_pay2 x0 x2 x3 x4 x5 x6) x7 x8 x9 x1 (ix2 p q)
      = mlpRow (fun k : Fin 192 => x0 (ix2 p k)) (fun k j => x2 (ix2 k j)) (fun j => x3 (ix1 j)) (fun j => x4 (ix1 j))
          (fun j => x5 (ix1 j)) (fun k j => x6 (ix2 k j)) (fun j => x7 (ix1 j)) (fun j => x8 (ix1 j)) (fun j => x9 (ix1 j)) q
        + x1 (ix2 p q) := by
  rw [featInner_eq, featOuter_eq]
  simp only [addf_apply, reluBlk_apply, lnBlk_apply, biasBlk_apply, mmMid_apply, mmIn192_apply]
  rfl

/-- The position body's stored value at row `p`, feature `q`: the network of row `p` of the aggregate block. -/
theorem posPay_apply (x0 : Vec Ideal S2000x64 .f32) (x1 : Vec Ideal S64x128 .f32)
    (x2 x3 x4 : Vec Ideal S128 .f32) (x5 : Vec Ideal S128x128 .f32) (x6 x7 x8 : Vec Ideal S128 .f32)
    (p : Fin 2000) (q : Fin 128) :
    k1_pay1 (F := Ideal) (k1_pay2 x0 x1 x2 x3 x4 x5) x6 x7 x8 (ix2 p q)
      = mlpRow (fun k : Fin 64 => x0 (ix2 p k)) (fun k j => x1 (ix2 k j)) (fun j => x2 (ix1 j)) (fun j => x3 (ix1 j))
          (fun j => x4 (ix1 j)) (fun k j => x5 (ix2 k j)) (fun j => x6 (ix1 j)) (fun j => x7 (ix1 j)) (fun j => x8 (ix1 j)) q := by
  rw [posInner_eq, posOuter_eq]
  simp only [reluBlk_apply, lnBlk_apply, biasBlk_apply, mmMid_apply, mmIn64_apply]
  rfl

/-- The same at any index of the block, the index split into its row and its feature. -/
theorem featPay_at (x0 : Vec Ideal S2000x192 .f32) (x1 : Vec Ideal S2000x128 .f32) (x2 : Vec Ideal S192x128 .f32)
    (x3 x4 x5 : Vec Ideal S128 .f32) (x6 : Vec Ideal S128x128 .f32) (x7 x8 x9 : Vec Ideal S128 .f32)
    (j : S2000x128.Idx) :
    k0_pay1 (F := Ideal) (k0_pay2 x0 x2 x3 x4 x5 x6) x7 x8 x9 x1 j
      = mlpRow (fun k : Fin 192 => x0 (ix2 (j 0) k)) (fun k j => x2 (ix2 k j)) (fun j => x3 (ix1 j)) (fun j => x4 (ix1 j))
          (fun j => x5 (ix1 j)) (fun k j => x6 (ix2 k j)) (fun j => x7 (ix1 j)) (fun j => x8 (ix1 j)) (fun j => x9 (ix1 j)) (j 1)
        + x1 j :=
  (congrArg (k0_pay1 (F := Ideal) (k0_pay2 x0 x2 x3 x4 x5 x6) x7 x8 x9 x1) (eq_ix2 j)).trans
    ((featPay_apply x0 x1 x2 x3 x4 x5 x6 x7 x8 x9 (j 0) (j 1)).trans (congrArg (_ + x1 ·) (eq_ix2 j).symm))

theorem posPay_at (x0 : Vec Ideal S2000x64 .f32) (x1 : Vec Ideal S64x128 .f32)
    (x2 x3 x4 : Vec Ideal S128 .f32) (x5 : Vec Ideal S128x128 .f32) (x6 x7 x8 : Vec Ideal S128 .f32)
    (j : S2000x128.Idx) :
    k1_pay1 (F := Ideal) (k1_pay2 x0 x1 x2 x3 x4 x5) x6 x7 x8 j
      = mlpRow (fun k : Fin 64 => x0 (ix2 (j 0) k)) (fun k j => x1 (ix2 k j)) (fun j => x2 (ix1 j)) (fun j => x3 (ix1 j))
          (fun j => x4 (ix1 j)) (fun k j => x5 (ix2 k j)) (fun j => x6 (ix1 j)) (fun j => x7 (ix1 j)) (fun j => x8 (ix1 j)) (j 1) :=
  (congrArg (k1_pay1 (F := Ideal) (k1_pay2 x0 x1 x2 x3 x4 x5) x6 x7 x8) (eq_ix2 j)).trans
    (posPay_apply x0 x1 x2 x3 x4 x5 x6 x7 x8 (j 0) (j 1))

end Cert.KernelIdeal.Blk

end
-- ==== Proof.KernelBlocks.lean ====
/-
  From the blocks a grid point writes back to the whole result arrays.

  Each region walks the 50000 rows in 25 blocks of 2000: at point `t` the aggregate block (and, for the feature branch,
  the input-feature block) is rows `2000 t … 2000 t + 1999` of its array, the weights, biases, scales and shifts are
  their whole arrays at every point, and the output block goes back to the same rows of the result. The body's stored
  value at row `p` of the block is the network of row `p` of the aggregate block, that is of row `2000 t + p` of the
  array: so what point `t` writes back is block `t` of the whole-array function of the specification. The 25 output
  blocks tile the result, so the result array ends holding that function.

  All of this is at any contents `V` the region finds on entry.
-/
import proofs.«113962_j36283883716971_1_alg».proof.Proof.Gen.KernelIdeal.Frame
import proofs.«113962_j36283883716971_1_alg».proof.Proof.BlockPayload
import Idealize.ShloMosaic.Lib.Pipeline.Value

set_option maxRecDepth 16384

noncomputable section

namespace Cert.KernelIdeal.Whole

open Cert.KernelIdeal Cert.KernelIdeal.Gen Cert.KernelIdeal.Blk Cert.Gin
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The feature region: where each window's block sits -/

/-- Window 0 moves down the rows with the grid point and stays in the one column block. -/
theorem idx0_0 : ∀ t : Fin cfg0.N, win0_0.index t (0 : Fin 2) = t.val ∧ win0_0.index t (1 : Fin 2) = 0 :=
  (by decide +kernel : ∀ t : Fin grid0.N, _)
/-- Window 1 moves down the rows with the grid point and stays in the one column block. -/
theorem idx0_1 : ∀ t : Fin cfg0.N, win0_1.index t (0 : Fin 2) = t.val ∧ win0_1.index t (1 : Fin 2) = 0 :=
  (by decide +kernel : ∀ t : Fin grid0.N, _)
/-- Window 10 moves down the rows with the grid point and stays in the one column block. -/
theorem idx0_10 : ∀ t : Fin cfg0.N, win0_10.index t (0 : Fin 2) = t.val ∧ win0_10.index t (1 : Fin 2) = 0 :=
  (by decide +kernel : ∀ t : Fin grid0.N, _)
/-- Window 2 is the one whole block at every point. -/
theorem idx0_2 : ∀ t : Fin cfg0.N, win0_2.index t (0 : Fin 2) = 0 ∧ win0_2.index t (1 : Fin 2) = 0 :=
  (by decide +kernel : ∀ t : Fin grid0.N, _)
/-- Window 6 is the one whole block at every point. -/
theorem idx0_6 : ∀ t : Fin cfg0.N, win0_6.index t (0 : Fin 2) = 0 ∧ win0_6.index t (1 : Fin 2) = 0 :=
  (by decide +kernel : ∀ t : Fin grid0.N, _)
/-- Window 3 is the one whole vector at every point. -/
theorem idx0_3 : ∀ t : Fin cfg0.N, win0_3.index t (0 : Fin 1) = 0 :=
  (by decide +kernel : ∀ t : Fin grid0.N, _)
/-- Window 4 is the one whole vector at every point. -/
theorem idx0_4 : ∀ t : Fin cfg0.N, win0_4.index t (0 : Fin 1) = 0 :=
  (by decide +kernel : ∀ t : Fin grid0.N, _)
/-- Window 5 is the one whole vector at every point. -/
theorem idx0_5 : ∀ t : Fin cfg0.N, win0_5.index t (0 : Fin 1) = 0 :=
  (by decide +kernel : ∀ t : Fin grid0.N, _)
/-- Window 7 is the one whole vector at every point. -/
theorem idx0_7 : ∀ t : Fin cfg0.N, win0_7.index t (0 : Fin 1) = 0 :=
  (by decide +kernel : ∀ t : Fin grid0.N, _)
/-- Window 8 is the one whole vector at every point. -/
theorem idx0_8 : ∀ t : Fin cfg0.N, win0_8.index t (0 : Fin 1) = 0 :=
  (by decide +kernel : ∀ t : Fin grid0.N, _)
/-- Window 9 is the one whole vector at every point. -/
theorem idx0_9 : ∀ t : Fin cfg0.N, win0_9.index t (0 : Fin 1) = 0 :=
  (by decide +kernel : ∀ t : Fin grid0.N, _)

/-- Window 0's block at point `t` is rows `2000 t … 2000 t + 1999` of its array. -/
theorem feat_blk0_apply (c : Dev nD) (t : Fin cfg0.N) (x : S2000x192.Idx) (k : S50000x192.Idx)
    (hk0 : (k 0).val = 2000 * t.val + (x 0).val) (hk1 : (k 1).val = (x 1).val) :
    (iblk0 V c 0 t : Vec Ideal S2000x192 .f32) x = (V c main_v18 : S50000x192.Idx → EReal) k := by
  obtain ⟨e0, e1⟩ := idx0_0 t
  unfold iblk0
  rw [View.read_apply]
  show V c main_v18 _ = V c main_v18 _
  congr 1
  funext a
  apply Fin.ext
  match a with
  | ⟨0, _⟩ => show win0_0.index t 0 * 2000 + 1 * (x 0).val = (k 0).val; rw [e0, hk0]; omega
  | ⟨1, _⟩ => show win0_0.index t 1 * 192 + 1 * (x 1).val = (k 1).val; rw [e1, hk1]; omega

/-- Window 1's block at point `t` is rows `2000 t … 2000 t + 1999` of its array. -/
theorem feat_blk1_apply (c : Dev nD) (t : Fin cfg0.N) (x : S2000x128.Idx) (k : S50000x128.Idx)
    (hk0 : (k 0).val = 2000 * t.val + (x 0).val) (hk1 : (k 1).val = (x 1).val) :
    (iblk0 V c 1 t : Vec Ideal S2000x128 .f32) x = (V c main_arg0 : S50000x128.Idx → EReal) k := by
  obtain ⟨e0, e1⟩ := idx0_1 t
  unfold iblk0
  rw [View.read_apply]
  show V c main_arg0 _ = V c main_arg0 _
  congr 1
  funext a
  apply Fin.ext
  match a with
  | ⟨0, _⟩ => show win0_1.index t 0 * 2000 + 1 * (x 0).val = (k 0).val; rw [e0, hk0]; omega
  | ⟨1, _⟩ => show win0_1.index t 1 * 128 + 1 * (x 1).val = (k 1).val; rw [e1, hk1]; omega

/-- Window 2's block at every point is its whole array. -/
theorem feat_blk2_eq (c : Dev nD) (t : Fin cfg0.N) :
    (iblk0 V c 2 t : Vec Ideal S192x128 .f32) = (V c main_arg4 : S192x128.Idx → EReal) := by
  obtain ⟨e0, e1⟩ := idx0_2 t
  funext x
  unfold iblk0
  rw [View.read_apply]
  show V c main_arg4 _ = V c main_arg4 x
  congr 1
  funext a
  apply Fin.ext
  match a with
  | ⟨0, _⟩ => show win0_2.index t 0 * 192 + 1 * (x 0).val = (x 0).val; rw [e0]; omega
  | ⟨1, _⟩ => show win0_2.index t 1 * 128 + 1 * (x 1).val = (x 1).val; rw [e1]; omega

/-- Window 6's block at every point is its whole array. -/
theorem feat_blk6_eq (c : Dev nD) (t : Fin cfg0.N) :
    (iblk0 V c 6 t : Vec Ideal S128x128 .f32) = (V c main_arg8 : S128x128.Idx → EReal) := by
  obtain ⟨e0, e1⟩ := idx0_6 t
  funext x
  unfold iblk0
  rw [View.read_apply]
  show V c main_arg8 _ = V c main_arg8 x
  congr 1
  funext a
  apply Fin.ext
  match a with
  | ⟨0, _⟩ => show win0_6.index t 0 * 128 + 1 * (x 0).val = (x 0).val; rw [e0]; omega
  | ⟨1, _⟩ => show win0_6.index t 1 * 128 + 1 * (x 1).val = (x 1).val; rw [e1]; omega

/-- Window 3's block at every point is its whole vector. -/
theorem feat_blk3_eq (c : Dev nD) (t : Fin cfg0.N) :
    (iblk0 V c 3 t : Vec Ideal S128 .f32) = (V c main_arg5 : S128.Idx → EReal) := by
  have e0 := idx0_3 t
  funext x
  unfold iblk0
  rw [View.read_apply]
  show V c main_arg5 _ = V c main_arg5 x
  congr 1
  funext a
  apply Fin.ext
  match a with
  | ⟨0, _⟩ => show win0_3.index t 0 * 128 + 1 * (x 0).val = (x 0).val; rw [e0]; omega

/-- Window 4's block at every point is its whole vector. -/
theorem feat_blk4_eq (c : Dev nD) (t : Fin cfg0.N) :
    (iblk0 V c 4 t : Vec Ideal S128 .f32) = (V c main_arg6 : S128.Idx → EReal) := by
  have e0 := idx0_4 t
  funext x
  unfold iblk0
  rw [View.read_apply]
  show V c main_arg6 _ = V c main_arg6 x
  congr 1
  funext a
  apply Fin.ext
  match a with
  | ⟨0, _⟩ => show win0_4.index t 0 * 128 + 1 * (x 0).val = (x 0).val; rw [e0]; omega

/-- Window 5's block at every point is its whole vector. -/
theorem feat_blk5_eq (c : Dev nD) (t : Fin cfg0.N) :
    (iblk0 V c 5 t : Vec Ideal S128 .f32) = (V c main_arg7 : S128.Idx → EReal) := by
  have e0 := idx0_5 t
  funext x
  unfold iblk0
  rw [View.read_apply]
  show V c main_arg7 _ = V c main_arg7 x
  congr 1
  funext a
  apply Fin.ext
  match a with
  | ⟨0, _⟩ => show win0_5.index t 0 * 128 + 1 * (x 0).val = (x 0).val; rw [e0]; omega

/-- Window 7's block at every point is its whole vector. -/
theorem feat_blk7_eq (c : Dev nD) (t : Fin cfg0.N) :
    (iblk0 V c 7 t : Vec Ideal S128 .f32) = (V c main_arg9 : S128.Idx → EReal) := by
  have e0 := idx0_7 t
  funext x
  unfold iblk0
  rw [View.read_apply]
  show V c main_arg9 _ = V c main_arg9 x
  congr 1
  funext a
  apply Fin.ext
  match a with
  | ⟨0, _⟩ => show win0_7.index t 0 * 128 + 1 * (x 0).val = (x 0).val; rw [e0]; omega

/-- Window 8's block at every point is its whole vector. -/
theorem feat_blk8_eq (c : Dev nD) (t : Fin cfg0.N) :
    (iblk0 V c 8 t : Vec Ideal S128 .f32) = (V c main_arg10 : S128.Idx → EReal) := by
  have e0 := idx0_8 t
  funext x
  unfold iblk0
  rw [View.read_apply]
  show V c main_arg10 _ = V c main_arg10 x
  congr 1
  funext a
  apply Fin.ext
  match a with
  | ⟨0, _⟩ => show win0_8.index t 0 * 128 + 1 * (x 0).val = (x 0).val; rw [e0]; omega

/-- Window 9's block at every point is its whole vector. -/
theorem feat_blk9_eq (c : Dev nD) (t : Fin cfg0.N) :
    (iblk0 V c 9 t : Vec Ideal S128 .f32) = (V c main_arg11 : S128.Idx → EReal) := by
  have e0 := idx0_9 t
  funext x
  unfold iblk0
  rw [View.read_apply]
  show V c main_arg11 _ = V c main_arg11 x
  congr 1
  funext a
  apply Fin.ext
  match a with
  | ⟨0, _⟩ => show win0_9.index t 0 * 128 + 1 * (x 0).val = (x 0).val; rw [e0]; omega

/-- WHAT POINT `t` WRITES BACK in the feature region: block `t` of the feature branch of the arrays the region finds. -/
theorem feat_flushed (c : Dev nD) (t : Fin cfg0.N) :
    (dat0 V c).flushed 10 t = ((cfg0.win 10).blk t).view.read (Elt Ideal) (featOut (V c main_v18) (V c main_arg0) (V c main_arg4) (V c main_arg5) (V c main_arg6) (V c main_arg7) (V c main_arg8) (V c main_arg9) (V c main_arg10) (V c main_arg11)) := by
  show (cfg0.win 10).cut (grid0.coords t) ((dat0 V c).after 10 t) = _
  rw [after0_10]
  unfold out0_10
  rw [View.canon_unit_zero hz2]
  simp only [View.ld_unit_zero (S := S2000x192) hz2, View.ld_unit_zero (S := S2000x128) hz2, View.ld_unit_zero (S := S192x128) hz2,
    View.ld_unit_zero (S := S128x128) hz2, View.ld_unit_zero (S := S128) hz1]
  funext j
  obtain ⟨o0, o1⟩ := idx0_10 t
  have hrow : ((((cfg0.win 10).blk t).view.emb j) 0).val = 2000 * t.val + (j 0).val := by
    show win0_10.index t 0 * 2000 + 1 * (j 0).val = _
    rw [o0]; omega
  have hcol : ((((cfg0.win 10).blk t).view.emb j) 1).val = (j 1).val := by
    show win0_10.index t 1 * 128 + 1 * (j 1).val = _
    rw [o1]; omega
  show k0_pay1 (F := Ideal) (k0_pay2 (iblk0 V c 0 t) (iblk0 V c 2 t) (iblk0 V c 3 t) (iblk0 V c 4 t) (iblk0 V c 5 t) (iblk0 V c 6 t))
      (iblk0 V c 7 t) (iblk0 V c 8 t) (iblk0 V c 9 t) (iblk0 V c 1 t) j
    = featOut (V c main_v18) (V c main_arg0) (V c main_arg4) (V c main_arg5) (V c main_arg6) (V c main_arg7) (V c main_arg8)
        (V c main_arg9) (V c main_arg10) (V c main_arg11) (((cfg0.win 10).blk t).view.emb j)
  rw [feat_blk2_eq V c t, feat_blk3_eq V c t, feat_blk4_eq V c t, feat_blk5_eq V c t, feat_blk6_eq V c t, feat_blk7_eq V c t,
    feat_blk8_eq V c t, feat_blk9_eq V c t]
  refine (featPay_at (iblk0 V c 0 t) (iblk0 V c 1 t) (V c main_arg4) (V c main_arg5) (V c main_arg6) (V c main_arg7) (V c main_arg8)
    (V c main_arg9) (V c main_arg10) (V c main_arg11) j).trans ?_
  exact (featOut_row (V c main_v18) (V c main_arg0) (V c main_arg4) (V c main_arg5) (V c main_arg6) (V c main_arg7) (V c main_arg8)
    (V c main_arg9) (V c main_arg10) (V c main_arg11) (((cfg0.win 10).blk t).view.emb j) _ _ _
    (fun k => (feat_blk0_apply V c t (ix2 (j 0) k) (ix2 ((((cfg0.win 10).blk t).view.emb j) 0) k) hrow rfl).symm)
    (feat_blk1_apply V c t j (ix2 ((((cfg0.win 10).blk t).view.emb j) 0) ((((cfg0.win 10).blk t).view.emb j) 1)) hrow hcol).symm
    (Fin.ext hcol)).symm

/-- An index of the result array is in point `t`'s output block iff each coordinate is in the block's range. -/
theorem feat_mem_blk (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v33).slice (win0_10.rect t)).set ↔ _
  rw [View.set_slice_whole, Rect.mem_set_unit]
  exact Iff.rfl

/-- Every index of the result array is in the output block of the point its row falls to: the 25 blocks of 2000 rows
    tile the 50000 rows. -/
theorem feat_cover (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_10 _, ?_⟩
  rw [feat_mem_blk]
  obtain ⟨o0, o1⟩ := idx0_10 ⟨(i 0).val / 2000, by rw [hN]; omega⟩
  intro a
  match a with
  | ⟨0, _⟩ =>
    show win0_10.index _ (0 : Fin 2) * 2000 ≤ (i 0).val ∧ (i 0).val < win0_10.index _ (0 : Fin 2) * 2000 + 2000
    rw [o0]
    show (i 0).val / 2000 * 2000 ≤ (i 0).val ∧ (i 0).val < (i 0).val / 2000 * 2000 + 2000
    omega
  | ⟨1, _⟩ =>
    show win0_10.index _ (1 : Fin 2) * 128 ≤ (i 1).val ∧ (i 1).val < win0_10.index _ (1 : Fin 2) * 128 + 128
    rw [o1]
    omega

/-- THE FEATURE RESULT ARRAY after the region: the feature branch of the arrays the region finds. -/
theorem feat_final (c : Dev nD) : (dat0 V c).arrAt 10 cfg0.N = (featOut (V c main_v18) (V c main_arg0) (V c main_arg4) (V c main_arg5) (V c main_arg6) (V c main_arg7) (V c main_arg8) (V c main_arg9) (V c main_arg10) (V c main_arg11)) :=
  (dat0 V c).arrAt_eq_of_cover 10 _ (fun t _ => feat_flushed V c t) (feat_cover)

/-! ## The position region -/

/-- Window 0 moves down the rows with the grid point and stays in the one column block. -/
theorem idx1_0 : ∀ t : Fin cfg1.N, win1_0.index t (0 : Fin 2) = t.val ∧ win1_0.index t (1 : Fin 2) = 0 :=
  (by decide +kernel : ∀ t : Fin grid1.N, _)
/-- Window 9 moves down the rows with the grid point and stays in the one column block. -/
theorem idx1_9 : ∀ t : Fin cfg1.N, win1_9.index t (0 : Fin 2) = t.val ∧ win1_9.index t (1 : Fin 2) = 0 :=
  (by decide +kernel : ∀ t : Fin grid1.N, _)
/-- Window 1 is the one whole block at every point. -/
theorem idx1_1 : ∀ t : Fin cfg1.N, win1_1.index t (0 : Fin 2) = 0 ∧ win1_1.index t (1 : Fin 2) = 0 :=
  (by decide +kernel : ∀ t : Fin grid1.N, _)
/-- Window 5 is the one whole block at every point. -/
theorem idx1_5 : ∀ t : Fin cfg1.N, win1_5.index t (0 : Fin 2) = 0 ∧ win1_5.index t (1 : Fin 2) = 0 :=
  (by decide +kernel : ∀ t : Fin grid1.N, _)
/-- Window 2 is the one whole vector at every point. -/
theorem idx1_2 : ∀ t : Fin cfg1.N, win1_2.index t (0 : Fin 1) = 0 :=
  (by decide +kernel : ∀ t : Fin grid1.N, _)
/-- Window 3 is the one whole vector at every point. -/
theorem idx1_3 : ∀ t : Fin cfg1.N, win1_3.index t (0 : Fin 1) = 0 :=
  (by decide +kernel : ∀ t : Fin grid1.N, _)
/-- Window 4 is the one whole vector at every point. -/
theorem idx1_4 : ∀ t : Fin cfg1.N, win1_4.index t (0 : Fin 1) = 0 :=
  (by decide +kernel : ∀ t : Fin grid1.N, _)
/-- Window 6 is the one whole vector at every point. -/
theorem idx1_6 : ∀ t : Fin cfg1.N, win1_6.index t (0 : Fin 1) = 0 :=
  (by decide +kernel : ∀ t : Fin grid1.N, _)
/-- Window 7 is the one whole vector at every point. -/
theorem idx1_7 : ∀ t : Fin cfg1.N, win1_7.index t (0 : Fin 1) = 0 :=
  (by decide +kernel : ∀ t : Fin grid1.N, _)
/-- Window 8 is the one whole vector at every point. -/
theorem idx1_8 : ∀ t : Fin cfg1.N, win1_8.index t (0 : Fin 1) = 0 :=
  (by decide +kernel : ∀ t : Fin grid1.N, _)

/-- Window 0's block at point `t` is rows `2000 t … 2000 t + 1999` of its array. -/
theorem pos_blk0_apply (c : Dev nD) (t : Fin cfg1.N) (x : S2000x64.Idx) (k : S50000x64.Idx)
    (hk0 : (k 0).val = 2000 * t.val + (x 0).val) (hk1 : (k 1).val = (x 1).val) :
    (iblk1 V c 0 t : Vec Ideal S2000x64 .f32) x = (V c main_v32 : S50000x64.Idx → EReal) k := by
  obtain ⟨e0, e1⟩ := idx1_0 t
  unfold iblk1
  rw [View.read_apply]
  show V c main_v32 _ = V c main_v32 _
  congr 1
  funext a
  apply Fin.ext
  match a with
  | ⟨0, _⟩ => show win1_0.index t 0 * 2000 + 1 * (x 0).val = (k 0).val; rw [e0, hk0]; omega
  | ⟨1, _⟩ => show win1_0.index t 1 * 64 + 1 * (x 1).val = (k 1).val; rw [e1, hk1]; omega

/-- Window 1's block at every point is its whole array. -/
theorem pos_blk1_eq (c : Dev nD) (t : Fin cfg1.N) :
    (iblk1 V c 1 t : Vec Ideal S64x128 .f32) = (V c main_arg13 : S64x128.Idx → EReal) := by
  obtain ⟨e0, e1⟩ := idx1_1 t
  funext x
  unfold iblk1
  rw [View.read_apply]
  show V c main_arg13 _ = V c main_arg13 x
  congr 1
  funext a
  apply Fin.ext
  match a with
  | ⟨0, _⟩ => show win1_1.index t 0 * 64 + 1 * (x 0).val = (x 0).val; rw [e0]; omega
  | ⟨1, _⟩ => show win1_1.index t 1 * 128 + 1 * (x 1).val = (x 1).val; rw [e1]; omega

/-- Window 5's block at every point is its whole array. -/
theorem pos_blk5_eq (c : Dev nD) (t : Fin cfg1.N) :
    (iblk1 V c 5 t : Vec Ideal S128x128 .f32) = (V c main_arg17 : S128x128.Idx → EReal) := by
  obtain ⟨e0, e1⟩ := idx1_5 t
  funext x
  unfold iblk1
  rw [View.read_apply]
  show V c main_arg17 _ = V c main_arg17 x
  congr 1
  funext a
  apply Fin.ext
  match a with
  | ⟨0, _⟩ => show win1_5.index t 0 * 128 + 1 * (x 0).val = (x 0).val; rw [e0]; omega
  | ⟨1, _⟩ => show win1_5.index t 1 * 128 + 1 * (x 1).val = (x 1).val; rw [e1]; omega

/-- Window 2's block at every point is its whole vector. -/
theorem pos_blk2_eq (c : Dev nD) (t : Fin cfg1.N) :
    (iblk1 V c 2 t : Vec Ideal S128 .f32) = (V c main_arg14 : S128.Idx → EReal) := by
  have e0 := idx1_2 t
  funext x
  unfold iblk1
  rw [View.read_apply]
  show V c main_arg14 _ = V c main_arg14 x
  congr 1
  funext a
  apply Fin.ext
  match a with
  | ⟨0, _⟩ => show win1_2.index t 0 * 128 + 1 * (x 0).val = (x 0).val; rw [e0]; omega

/-- Window 3's block at every point is its whole vector. -/
theorem pos_blk3_eq (c : Dev nD) (t : Fin cfg1.N) :
    (iblk1 V c 3 t : Vec Ideal S128 .f32) = (V c main_arg15 : S128.Idx → EReal) := by
  have e0 := idx1_3 t
  funext x
  unfold iblk1
  rw [View.read_apply]
  show V c main_arg15 _ = V c main_arg15 x
  congr 1
  funext a
  apply Fin.ext
  match a with
  | ⟨0, _⟩ => show win1_3.index t 0 * 128 + 1 * (x 0).val = (x 0).val; rw [e0]; omega

/-- Window 4's block at every point is its whole vector. -/
theorem pos_blk4_eq (c : Dev nD) (t : Fin cfg1.N) :
    (iblk1 V c 4 t : Vec Ideal S128 .f32) = (V c main_arg16 : S128.Idx → EReal) := by
  have e0 := idx1_4 t
  funext x
  unfold iblk1
  rw [View.read_apply]
  show V c main_arg16 _ = V c main_arg16 x
  congr 1
  funext a
  apply Fin.ext
  match a with
  | ⟨0, _⟩ => show win1_4.index t 0 * 128 + 1 * (x 0).val = (x 0).val; rw [e0]; omega

/-- Window 6's block at every point is its whole vector. -/
theorem pos_blk6_eq (c : Dev nD) (t : Fin cfg1.N) :
    (iblk1 V c 6 t : Vec Ideal S128 .f32) = (V c main_arg18 : S128.Idx → EReal) := by
  have e0 := idx1_6 t
  funext x
  unfold iblk1
  rw [View.read_apply]
  show V c main_arg18 _ = V c main_arg18 x
  congr 1
  funext a
  apply Fin.ext
  match a with
  | ⟨0, _⟩ => show win1_6.index t 0 * 128 + 1 * (x 0).val = (x 0).val; rw [e0]; omega

/-- Window 7's block at every point is its whole vector. -/
theorem pos_blk7_eq (c : Dev nD) (t : Fin cfg1.N) :
    (iblk1 V c 7 t : Vec Ideal S128 .f32) = (V c main_arg19 : S128.Idx → EReal) := by
  have e0 := idx1_7 t
  funext x
  unfold iblk1
  rw [View.read_apply]
  show V c main_arg19 _ = V c main_arg19 x
  congr 1
  funext a
  apply Fin.ext
  match a with
  | ⟨0, _⟩ => show win1_7.index t 0 * 128 + 1 * (x 0).val = (x 0).val; rw [e0]; omega

/-- Window 8's block at every point is its whole vector. -/
theorem pos_blk8_eq (c : Dev nD) (t : Fin cfg1.N) :
    (iblk1 V c 8 t : Vec Ideal S128 .f32) = (V c main_arg20 : S128.Idx → EReal) := by
  have e0 := idx1_8 t
  funext x
  unfold iblk1
  rw [View.read_apply]
  show V c main_arg20 _ = V c main_arg20 x
  congr 1
  funext a
  apply Fin.ext
  match a with
  | ⟨0, _⟩ => show win1_8.index t 0 * 128 + 1 * (x 0).val = (x 0).val; rw [e0]; omega

/-- WHAT POINT `t` WRITES BACK in the position region: block `t` of the position branch of the arrays the region finds. -/
theorem pos_flushed (c : Dev nD) (t : Fin cfg1.N) :
    (dat1 V c).flushed 9 t = ((cfg1.win 9).blk t).view.read (Elt Ideal) (posOut (V c main_v32) (V c main_arg13) (V c main_arg14) (V c main_arg15) (V c main_arg16) (V c main_arg17) (V c main_arg18) (V c main_arg19) (V c main_arg20)) := by
  show (cfg1.win 9).cut (grid1.coords t) ((dat1 V c).after 9 t) = _
  rw [after1_9]
  unfold out1_9
  rw [View.canon_unit_zero hz2]
  simp only [View.ld_unit_zero (S := S2000x64) hz2, View.ld_unit_zero (S := S64x128) hz2,
    View.ld_unit_zero (S := S128x128) hz2, View.ld_unit_zero (S := S128) hz1]
  funext j
  obtain ⟨o0, o1⟩ := idx1_9 t
  have hrow : ((((cfg1.win 9).blk t).view.emb j) 0).val = 2000 * t.val + (j 0).val := by
    show win1_9.index t 0 * 2000 + 1 * (j 0).val = _
    rw [o0]; omega
  have hcol : ((((cfg1.win 9).blk t).view.emb j) 1).val = (j 1).val := by
    show win1_9.index t 1 * 128 + 1 * (j 1).val = _
    rw [o1]; omega
  show k1_pay1 (F := Ideal) (k1_pay2 (iblk1 V c 0 t) (iblk1 V c 1 t) (iblk1 V c 2 t) (iblk1 V c 3 t) (iblk1 V c 4 t) (iblk1 V c 5 t))
      (iblk1 V c 6 t) (iblk1 V c 7 t) (iblk1 V c 8 t) j
    = posOut (V c main_v32) (V c main_arg13) (V c main_arg14) (V c main_arg15) (V c main_arg16) (V c main_arg17)
        (V c main_arg18) (V c main_arg19) (V c main_arg20) (((cfg1.win 9).blk t).view.emb j)
  rw [pos_blk1_eq V c t, pos_blk2_eq V c t, pos_blk3_eq V c t, pos_blk4_eq V c t, pos_blk5_eq V c t, pos_blk6_eq V c t,
    pos_blk7_eq V c t, pos_blk8_eq V c t]
  refine (posPay_at (iblk1 V c 0 t) (V c main_arg13) (V c main_arg14) (V c main_arg15) (V c main_arg16) (V c main_arg17)
    (V c main_arg18) (V c main_arg19) (V c main_arg20) j).trans ?_
  exact (posOut_row (V c main_v32) (V c main_arg13) (V c main_arg14) (V c main_arg15) (V c main_arg16) (V c main_arg17)
    (V c main_arg18) (V c main_arg19) (V c main_arg20) (((cfg1.win 9).blk t).view.emb j) _ _
    (fun k => (pos_blk0_apply V c t (ix2 (j 0) k) (ix2 ((((cfg1.win 9).blk t).view.emb j) 0) k) hrow rfl).symm)
    (Fin.ext hcol)).symm

/-- An index of the result array is in point `t`'s output block iff each coordinate is in the block's range. -/
theorem pos_mem_blk (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v34).slice (win1_9.rect t)).set ↔ _
  rw [View.set_slice_whole, Rect.mem_set_unit]
  exact Iff.rfl

/-- Every index of the result array is in the output block of the point its row falls to: the 25 blocks of 2000 rows
    tile the 50000 rows. -/
theorem pos_cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_9 _, ?_⟩
  rw [pos_mem_blk]
  obtain ⟨o0, o1⟩ := idx1_9 ⟨(i 0).val / 2000, by rw [hN]; omega⟩
  intro a
  match a with
  | ⟨0, _⟩ =>
    show win1_9.index _ (0 : Fin 2) * 2000 ≤ (i 0).val ∧ (i 0).val < win1_9.index _ (0 : Fin 2) * 2000 + 2000
    rw [o0]
    show (i 0).val / 2000 * 2000 ≤ (i 0).val ∧ (i 0).val < (i 0).val / 2000 * 2000 + 2000
    omega
  | ⟨1, _⟩ =>
    show win1_9.index _ (1 : Fin 2) * 128 ≤ (i 1).val ∧ (i 1).val < win1_9.index _ (1 : Fin 2) * 128 + 128
    rw [o1]
    omega

/-- THE POSITION RESULT ARRAY after the region: the position branch of the arrays the region finds. -/
theorem pos_final (c : Dev nD) : (dat1 V c).arrAt 9 cfg1.N = (posOut (V c main_v32) (V c main_arg13) (V c main_arg14) (V c main_arg15) (V c main_arg16) (V c main_arg17) (V c main_arg18) (V c main_arg19) (V c main_arg20)) :=
  (dat1 V c).arrAt_eq_of_cover 9 _ (fun t _ => pos_flushed V c t) (pos_cover)

end Cert.KernelIdeal.Whole

end
-- ==== Proof.HostPrelude.lean ====
/-
  What the two regions find on entry.

  Before the first region the program runs a stretch of host operations: it concatenates the input features and
  positions, gathers the rows at the edges' sources, scatter-adds them at the edges' targets, and adds the node's own row
  scaled by one plus the coefficient — once for the concatenated features, once for the positions alone. No host operation
  writes an argument, and the first region writes only its own result, so both regions find every argument as launched.
  The two aggregated arrays they find are the host operations' composed terms of the arguments; the reference computes
  its aggregated arrays by the very same operations in the same order, so the terms coincide.
-/
import proofs.«113962_j36283883716971_1_alg».proof.Proof.Gen.KernelIdeal.Frame
import proofs.«113962_j36283883716971_1_alg».proof.Proof.Gen.ReferenceIdeal.Read
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## The arguments, as the first region finds them -/

theorem entry_arg0 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem entry_arg4 (c : Dev nD) : V1 m ρ c main_arg4 = m ((c : Thread nD τ).loc main_arg4) :=
  calc V1 m ρ c main_arg4
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem entry_arg5 (c : Dev nD) : V1 m ρ c main_arg5 = m ((c : Thread nD τ).loc main_arg5) :=
  calc V1 m ρ c main_arg5
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem entry_arg6 (c : Dev nD) : V1 m ρ c main_arg6 = m ((c : Thread nD τ).loc main_arg6) :=
  calc V1 m ρ c main_arg6
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem entry_arg7 (c : Dev nD) : V1 m ρ c main_arg7 = m ((c : Thread nD τ).loc main_arg7) :=
  calc V1 m ρ c main_arg7
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem entry_arg8 (c : Dev nD) : V1 m ρ c main_arg8 = m ((c : Thread nD τ).loc main_arg8) :=
  calc V1 m ρ c main_arg8
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem entry_arg9 (c : Dev nD) : V1 m ρ c main_arg9 = m ((c : Thread nD τ).loc main_arg9) :=
  calc V1 m ρ c main_arg9
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem entry_arg10 (c : Dev nD) : V1 m ρ c main_arg10 = m ((c : Thread nD τ).loc main_arg10) :=
  calc V1 m ρ c main_arg10
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem entry_arg11 (c : Dev nD) : V1 m ρ c main_arg11 = m ((c : Thread nD τ).loc main_arg11) :=
  calc V1 m ρ c main_arg11
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem entry_arg13 (c : Dev nD) : V1 m ρ c main_arg13 = m ((c : Thread nD τ).loc main_arg13) :=
  calc V1 m ρ c main_arg13
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem entry_arg14 (c : Dev nD) : V1 m ρ c main_arg14 = m ((c : Thread nD τ).loc main_arg14) :=
  calc V1 m ρ c main_arg14
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem entry_arg15 (c : Dev nD) : V1 m ρ c main_arg15 = m ((c : Thread nD τ).loc main_arg15) :=
  calc V1 m ρ c main_arg15
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem entry_arg16 (c : Dev nD) : V1 m ρ c main_arg16 = m ((c : Thread nD τ).loc main_arg16) :=
  calc V1 m ρ c main_arg16
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem entry_arg17 (c : Dev nD) : V1 m ρ c main_arg17 = m ((c : Thread nD τ).loc main_arg17) :=
  calc V1 m ρ c main_arg17
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem entry_arg18 (c : Dev nD) : V1 m ρ c main_arg18 = m ((c : Thread nD τ).loc main_arg18) :=
  calc V1 m ρ c main_arg18
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem entry_arg19 (c : Dev nD) : V1 m ρ c main_arg19 = m ((c : Thread nD τ).loc main_arg19) :=
  calc V1 m ρ c main_arg19
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem entry_arg20 (c : Dev nD) : V1 m ρ c main_arg20 = m ((c : Thread nD τ).loc main_arg20) :=
  calc V1 m ρ c main_arg20
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

/-! ## The arguments, as the second region finds them -/

theorem entry2_arg13 (c : Dev nD) : V2 m ρ c main_arg13 = m ((c : Thread nD τ).loc main_arg13) :=
  (W2_of_ne m ρ c main_arg13 (by decide)).trans (entry_arg13 m ρ c)

theorem entry2_arg14 (c : Dev nD) : V2 m ρ c main_arg14 = m ((c : Thread nD τ).loc main_arg14) :=
  (W2_of_ne m ρ c main_arg14 (by decide)).trans (entry_arg14 m ρ c)

theorem entry2_arg15 (c : Dev nD) : V2 m ρ c main_arg15 = m ((c : Thread nD τ).loc main_arg15) :=
  (W2_of_ne m ρ c main_arg15 (by decide)).trans (entry_arg15 m ρ c)

theorem entry2_arg16 (c : Dev nD) : V2 m ρ c main_arg16 = m ((c : Thread nD τ).loc main_arg16) :=
  (W2_of_ne m ρ c main_arg16 (by decide)).trans (entry_arg16 m ρ c)

theorem entry2_arg17 (c : Dev nD) : V2 m ρ c main_arg17 = m ((c : Thread nD τ).loc main_arg17) :=
  (W2_of_ne m ρ c main_arg17 (by decide)).trans (entry_arg17 m ρ c)

theorem entry2_arg18 (c : Dev nD) : V2 m ρ c main_arg18 = m ((c : Thread nD τ).loc main_arg18) :=
  (W2_of_ne m ρ c main_arg18 (by decide)).trans (entry_arg18 m ρ c)

theorem entry2_arg19 (c : Dev nD) : V2 m ρ c main_arg19 = m ((c : Thread nD τ).loc main_arg19) :=
  (W2_of_ne m ρ c main_arg19 (by decide)).trans (entry_arg19 m ρ c)

theorem entry2_arg20 (c : Dev nD) : V2 m ρ c main_arg20 = m ((c : Thread nD τ).loc main_arg20) :=
  (W2_of_ne m ρ c main_arg20 (by decide)).trans (entry_arg20 m ρ c)

/-! ## The aggregated arrays -/

set_option maxHeartbeats 40000000 in
/-- The aggregated features the first region finds are the reference's aggregated features of the same arguments. -/
theorem entry_aggFeat (c : Dev nD) :
    V1 m ρ c main_v18 = Cert.ReferenceIdeal.Read.val_main_v18 (F := Ideal) (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v18) = _
  after_results
  rfl

set_option maxHeartbeats 40000000 in
/-- The aggregated positions after the host operations are the reference's aggregated positions of the same arguments. -/
theorem entry_aggPos1 (c : Dev nD) :
    V1 m ρ c main_v32 = Cert.ReferenceIdeal.Read.val_main_v90 (F := Ideal) (m ((c : Thread nD τ).loc main_arg1)) (m ((c : Thread nD τ).loc main_arg2)) (m ((c : Thread nD τ).loc main_arg12)) := by
  show StableHlo.after hostOps0 (W0 m ρ c) (Proc.devRef .tc main_v32) = _
  after_results
  rfl

/-- The first region leaves the aggregated positions alone, so the second region finds them as computed. -/
theorem entry_aggPos (c : Dev nD) :
    V2 m ρ c main_v32 = Cert.ReferenceIdeal.Read.val_main_v90 (F := Ideal) (m ((c : Thread nD τ).loc main_arg1)) (m ((c : Thread nD τ).loc main_arg2)) (m ((c : Thread nD τ).loc main_arg12)) :=
  (W2_of_ne m ρ c main_v32 (by decide)).trans (entry_aggPos1 m ρ c)

end Cert.KernelIdeal.Whole

end
-- ==== Proof.KernelValue.lean ====
/-
  The kernel program's two results as functions of its arguments.

  The run ends with the feature result at what the first region's write-backs leave, which is the feature branch of the
  arrays that region finds; those are the arguments as launched and the aggregated features, which are the reference's
  aggregated features of the same arguments. Likewise the position result, through the second region. So each result is
  the specification's whole-array function of the arguments alone.
-/
import proofs.«113962_j36283883716971_1_alg».proof.Proof.KernelRun
import proofs.«113962_j36283883716971_1_alg».proof.Proof.KernelBlocks
import proofs.«113962_j36283883716971_1_alg».proof.Proof.HostPrelude

set_option maxRecDepth 16384

noncomputable section

namespace Cert.KernelIdeal.Whole

open Cert.KernelIdeal Cert.KernelIdeal.Gen Cert.Gin
open Idealize.ShloMosaic Idealize.ShloMosaic.TcCoe
open Idealize.SL Idealize.SL.Sem

variable (m : (ℓ : Loc nD τ sig) → Buf (Elt Ideal) ℓ) (ρ : Dev nD → PrngReg)

/-- The feature result array: the feature branch of the arguments. -/
theorem feat_value (c : Dev nD) :
    (dat0 (V1 m ρ) c).arrAt 10 cfg0.N
      = featOut (Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [feat_final (V1 m ρ) c, entry_aggFeat m ρ c, entry_arg0 m ρ c, entry_arg4 m ρ c, entry_arg5 m ρ c, entry_arg6 m ρ c,
    entry_arg7 m ρ c, entry_arg8 m ρ c, entry_arg9 m ρ c, entry_arg10 m ρ c, entry_arg11 m ρ c]

/-- The position result array: the position branch of the arguments. -/
theorem pos_value (c : Dev nD) :
    (dat1 (V2 m ρ) c).arrAt 9 cfg1.N
      = posOut (Cert.ReferenceIdeal.Read.val_main_v90 (F := Ideal) (m ((c.tc : Thread nD τ).loc main_arg1)) (m ((c.tc : Thread nD τ).loc main_arg2)) (m ((c.tc : Thread nD τ).loc main_arg12)))
          (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [pos_final (V2 m ρ) c, entry_aggPos m ρ c, entry2_arg13 m ρ c, entry2_arg14 m ρ c, entry2_arg15 m ρ c, entry2_arg16 m ρ c,
    entry2_arg17 m ρ c, entry2_arg18 m ρ c, entry2_arg19 m ρ c, entry2_arg20 m ρ c]

/-- Every weakly fair execution of the kernel program terminates without a fault, with the two results at the
    specification's functions of the arguments and every argument as launched. -/
theorem run_value : θ_run (defs (F := Ideal)) (onTc (τ := τ) (main (F := Ideal))) ⟨m, fun _ => 0, ρ⟩ (fun r => ∀ c : Dev nD,
      r.2.mem ((c.tc : Thread nD τ).loc main_v33)
        = featOut (Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v34)
        = posOut (Cert.ReferenceIdeal.Read.val_main_v90 (F := Ideal) (m ((c.tc : Thread nD τ).loc main_arg1)) (m ((c.tc : Thread nD τ).loc main_arg2)) (m ((c.tc : Thread nD τ).loc main_arg12)))
          (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run (defs (F := Ideal)) _ _).mono
    (fun r h c => ⟨(h c).1.trans (feat_value m ρ c), (h c).2.1.trans (pos_value m ρ c), (h c).2.2⟩)
    (run_named m ρ)

end Cert.KernelIdeal.Whole

end
-- ==== Proof.HostLayers.lean ====
/-
  The reference program's two branches, read one row at a time.

  The reference applies the same layers to the whole [50000, ·] arrays: a matrix product with the weights plus the bias
  row, a layer normalisation along the 128 features (sum, mean, squared deviations, their mean, the offset square root,
  scale and shift), a rectifier, and the same again; the feature branch ends by adding the input features. Each whole-array
  stage read at row `p`, feature `q` touches row `p` of its operand only, so it is the row function of the
  specification applied to row `p`. The stages are read with the generated index-by-index lemmas of the reference's run;
  what is added here is that the index maps those lemmas compose are "same row, feature k" or "feature q", and that a sum
  started from the zero word is the sum.
-/
import proofs.«113962_j36283883716971_1_alg».proof.Proof.Gen.ReferenceIdeal.Read
import proofs.«113962_j36283883716971_1_alg».proof.Proof.RowSpec

set_option maxRecDepth 16384

noncomputable section

namespace Cert.ReferenceIdeal.Rows

open Cert.ReferenceIdeal Cert.ReferenceIdeal.Read Idealize.ShloMosaic Idealize.ShloMosaic.ValueIdx Cert.Gin
open scoped BigOperators

/-! ## The feature branch -/

/-- The feature branch's first dense layer at row `p`: row `p` of the aggregated features against the weights, plus the bias. -/
theorem featDense1 (x0 : (⟨S50000x128, .f32⟩ : BufTy).Contents (Elt Ideal)) (x1 : (⟨S50000x64, .f32⟩ : BufTy).Contents (Elt Ideal)) (x2 : (⟨S2x400000, .i32⟩ : BufTy).Contents (Elt Ideal)) (x3 : (⟨S_, .f32⟩ : BufTy).Contents (Elt Ideal)) (x4 : (⟨S192x128, .f32⟩ : BufTy).Contents (Elt Ideal)) (x5 : (⟨S128, .f32⟩ : BufTy).Contents (Elt Ideal)) (p : Fin 50000) (q : Fin 128) :
    val_main_v22 (F := Ideal) x0 x1 x2 x3 x4 x5 (ix2 p q)
      = denseRow (fun k : Fin 192 => val_main_v18 (F := Ideal) x0 x1 x2 x3 (ix2 p k)) (fun k j => x4 (ix2 k j)) (fun j => x5 (ix1 j)) q := by
  have el : ∀ k : Fin 192, lidx_main_v19 (ix2 p q) k = ix2 p k := fun k => funext fun a => by
    match a with | ⟨0, _⟩ => rfl | ⟨1, _⟩ => rfl
  have er : ∀ k : Fin 192, ridx_main_v19 (ix2 p q) k = ix2 k q := fun k => funext fun a => by
    match a with | ⟨0, _⟩ => rfl | ⟨1, _⟩ => rfl
  have eb : idx_main_v20 (idx_main_v21 (ix2 p q)) = ix1 q := funext fun a => by
    match a with | ⟨0, _⟩ => rfl
  simp only [val_main_v22_apply, val_main_v19_apply, val_main_v21_apply, val_main_v20_apply, el, er, eb]
  rfl

/-- The feature branch's first normalisation at row `p`. -/
theorem featNorm1 (x0 : (⟨S50000x128, .f32⟩ : BufTy).Contents (Elt Ideal)) (x1 : (⟨S50000x64, .f32⟩ : BufTy).Contents (Elt Ideal)) (x2 : (⟨S2x400000, .i32⟩ : BufTy).Contents (Elt Ideal)) (x3 : (⟨S_, .f32⟩ : BufTy).Contents (Elt Ideal)) (x4 : (⟨S192x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (p : Fin 50000) (q : Fin 128) :
    val_main_v46 (F := Ideal) x0 x1 x2 x3 x4 x5 x6 x7 (ix2 p q)
      = lnRow (fun k => val_main_v22 (F := Ideal) x0 x1 x2 x3 x4 x5 (ix2 p k)) (fun k => x6 (ix1 k)) (fun k => x7 (ix1 k)) q := by
  have e1 : ∀ (p' : Fin 50000) (q' k : Fin 128), idx_main_v23 (idx_main_v24 (idx_main_v27 (ix2 p' q'))) k = ix2 p' k :=
    fun p' q' k => funext fun a => by match a with | ⟨0, _⟩ => rfl | ⟨1, _⟩ => rfl
  have e1' : ∀ (p' : Fin 50000) (q' k : Fin 128), idx_main_v23 (idx_main_v24 (idx_main_v34 (ix2 p' q'))) k = ix2 p' k :=
    fun p' q' k => funext fun a => by match a with | ⟨0, _⟩ => rfl | ⟨1, _⟩ => rfl
  have e2 : ∀ k : Fin 128, idx_main_v30 (idx_main_v31 (idx_main_v39 (ix2 p q))) k = ix2 p k :=
    fun k => funext fun a => by match a with | ⟨0, _⟩ => rfl | ⟨1, _⟩ => rfl
  have eg : idx_main_v41 (idx_main_v42 (ix2 p q)) = ix1 q := funext fun a => by
    match a with | ⟨0, _⟩ => rfl
  have eb : idx_main_v44 (idx_main_v45 (ix2 p q)) = ix1 q := funext fun a => by
    match a with | ⟨0, _⟩ => rfl
  simp only [val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply,
    val_main_cst_2_apply, val_main_cst_3_apply, val_main_cst_4_apply, val_main_cst_5_apply, val_main_cst_6_apply, e1, e1', e2, eg, eb]
  simp only [Ideal.ofBits_def, Ideal.ofBits_zero_f32, zero_add]
  rfl

/-- The first rectifier of the feature branch. -/
theorem featRelu1 (x0 : (⟨S50000x128, .f32⟩ : BufTy).Contents (Elt Ideal)) (x1 : (⟨S50000x64, .f32⟩ : BufTy).Contents (Elt Ideal)) (x2 : (⟨S2x400000, .i32⟩ : BufTy).Contents (Elt Ideal)) (x3 : (⟨S_, .f32⟩ : BufTy).Contents (Elt Ideal)) (x4 : (⟨S192x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (i : S50000x128.Idx) :
    val_main_v47 (F := Ideal) x0 x1 x2 x3 x4 x5 x6 x7 i = relu (val_main_v46 (F := Ideal) x0 x1 x2 x3 x4 x5 x6 x7 i) := by
  simp only [val_main_v47_apply, val_main_call0_v0_apply, val_main_call0_cst_apply]
  rfl

/-- The feature branch's second dense layer at row `p`. -/
theorem featDense2 (x0 : (⟨S50000x128, .f32⟩ : BufTy).Contents (Elt Ideal)) (x1 : (⟨S50000x64, .f32⟩ : BufTy).Contents (Elt Ideal)) (x2 : (⟨S2x400000, .i32⟩ : BufTy).Contents (Elt Ideal)) (x3 : (⟨S_, .f32⟩ : BufTy).Contents (Elt Ideal)) (x4 : (⟨S192x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (p : Fin 50000) (q : Fin 128) :
    val_main_v51 (F := Ideal) x0 x1 x2 x3 x4 x5 x6 x7 x8 x9 (ix2 p q)
      = denseRow (fun k : Fin 128 => val_main_v47 (F := Ideal) x0 x1 x2 x3 x4 x5 x6 x7 (ix2 p k)) (fun k j => x8 (ix2 k j)) (fun j => x9 (ix1 j)) q := by
  have el : ∀ k : Fin 128, lidx_main_v48 (ix2 p q) k = ix2 p k := fun k => funext fun a => by
    match a with | ⟨0, _⟩ => rfl | ⟨1, _⟩ => rfl
  have er : ∀ k : Fin 128, ridx_main_v48 (ix2 p q) k = ix2 k q := fun k => funext fun a => by
    match a with | ⟨0, _⟩ => rfl | ⟨1, _⟩ => rfl
  have eb : idx_main_v49 (idx_main_v50 (ix2 p q)) = ix1 q := funext fun a => by
    match a with | ⟨0, _⟩ => rfl
  simp only [val_main_v51_apply, val_main_v48_apply, val_main_v50_apply, val_main_v49_apply, el, er, eb]
  rfl

/-- The feature branch's second normalisation at row `p`. -/
theorem featNorm2 (x0 : (⟨S50000x128, .f32⟩ : BufTy).Contents (Elt Ideal)) (x1 : (⟨S50000x64, .f32⟩ : BufTy).Contents (Elt Ideal)) (x2 : (⟨S2x400000, .i32⟩ : BufTy).Contents (Elt Ideal)) (x3 : (⟨S_, .f32⟩ : BufTy).Contents (Elt Ideal)) (x4 : (⟨S192x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (p : Fin 50000) (q : Fin 128) :
    val_main_v75 (F := Ideal) x0 x1 x2 x3 x4 x5 x6 x7 x8 x9 x10 x11 (ix2 p q)
      = lnRow (fun k => val_main_v51 (F := Ideal) x0 x1 x2 x3 x4 x5 x6 x7 x8 x9 (ix2 p k)) (fun k => x10 (ix1 k)) (fun k => x11 (ix1 k)) q := by
  have e1 : ∀ (p' : Fin 50000) (q' k : Fin 128), idx_main_v52 (idx_main_v53 (idx_main_v56 (ix2 p' q'))) k = ix2 p' k :=
    fun p' q' k => funext fun a => by match a with | ⟨0, _⟩ => rfl | ⟨1, _⟩ => rfl
  have e1' : ∀ (p' : Fin 50000) (q' k : Fin 128), idx_main_v52 (idx_main_v53 (idx_main_v63 (ix2 p' q'))) k = ix2 p' k :=
    fun p' q' k => funext fun a => by match a with | ⟨0, _⟩ => rfl | ⟨1, _⟩ => rfl
  have e2 : ∀ k : Fin 128, idx_main_v59 (idx_main_v60 (idx_main_v68 (ix2 p q))) k = ix2 p k :=
    fun k => funext fun a => by match a with | ⟨0, _⟩ => rfl | ⟨1, _⟩ => rfl
  have eg : idx_main_v70 (idx_main_v71 (ix2 p q)) = ix1 q := funext fun a => by
    match a with | ⟨0, _⟩ => rfl
  have eb : idx_main_v73 (idx_main_v74 (ix2 p q)) = ix1 q := funext fun a => by
    match a with | ⟨0, _⟩ => rfl
  simp only [val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply,
    val_main_cst_7_apply, val_main_cst_8_apply, val_main_cst_9_apply, val_main_cst_10_apply, val_main_cst_11_apply, e1, e1', e2, eg, eb]
  simp only [Ideal.ofBits_def, Ideal.ofBits_zero_f32, zero_add]
  rfl

/-- The second rectifier of the feature branch. -/
theorem featRelu2 (x0 : (⟨S50000x128, .f32⟩ : BufTy).Contents (Elt Ideal)) (x1 : (⟨S50000x64, .f32⟩ : BufTy).Contents (Elt Ideal)) (x2 : (⟨S2x400000, .i32⟩ : BufTy).Contents (Elt Ideal)) (x3 : (⟨S_, .f32⟩ : BufTy).Contents (Elt Ideal)) (x4 : (⟨S192x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) (i : S50000x128.Idx) :
    val_main_v76 (F := Ideal) x0 x1 x2 x3 x4 x5 x6 x7 x8 x9 x10 x11 i = relu (val_main_v75 (F := Ideal) x0 x1 x2 x3 x4 x5 x6 x7 x8 x9 x10 x11 i) := by
  simp only [val_main_v76_apply, val_main_call1_v0_apply, val_main_call1_cst_apply]
  rfl

/-- The reference's feature result is the specification's feature branch of the aggregated features it computes. -/
theorem feat_eq (x0 : (⟨S50000x128, .f32⟩ : BufTy).Contents (Elt Ideal)) (x1 : (⟨S50000x64, .f32⟩ : BufTy).Contents (Elt Ideal)) (x2 : (⟨S2x400000, .i32⟩ : BufTy).Contents (Elt Ideal)) (x3 : (⟨S_, .f32⟩ : BufTy).Contents (Elt Ideal)) (x4 : (⟨S192x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128, .f32⟩ : BufTy).Contents (Elt Ideal)) (x11 : (⟨S128, .f32⟩ : BufTy).Contents (Elt Ideal)) :
    val_main_v149 (F := Ideal) x0 x1 x2 x3 x4 x5 x6 x7 x8 x9 x10 x11 = featOut (val_main_v18 (F := Ideal) x0 x1 x2 x3) x0 x4 x5 x6 x7 x8 x9 x10 x11 := by
  funext i
  obtain ⟨p, q, rfl⟩ : ∃ (p : Fin 50000) (q : Fin 128), i = ix2 p q := ⟨i 0, i 1, eq_ix2 i⟩
  simp only [val_main_v149_apply, featRelu2, featNorm2, featDense2, featRelu1, featNorm1, featDense1]
  rfl

/-! ## The position branch -/

/-- The position branch's first dense layer at row `p`. -/
theorem posDense1 (x1 : (⟨S50000x64, .f32⟩ : BufTy).Contents (Elt Ideal)) (x2 : (⟨S2x400000, .i32⟩ : BufTy).Contents (Elt Ideal)) (x12 : (⟨S_, .f32⟩ : BufTy).Contents (Elt Ideal)) (x13 : (⟨S64x128, .f32⟩ : BufTy).Contents (Elt Ideal)) (x14 : (⟨S128, .f32⟩ : BufTy).Contents (Elt Ideal)) (p : Fin 50000) (q : Fin 128) :
    val_main_v94 (F := Ideal) x1 x2 x12 x13 x14 (ix2 p q)
      = denseRow (fun k : Fin 64 => val_main_v90 (F := Ideal) x1 x2 x12 (ix2 p k)) (fun k j => x13 (ix2 k j)) (fun j => x14 (ix1 j)) q := by
  have el : ∀ k : Fin 64, lidx_main_v91 (ix2 p q) k = ix2 p k := fun k => funext fun a => by
    match a with | ⟨0, _⟩ => rfl | ⟨1, _⟩ => rfl
  have er : ∀ k : Fin 64, ridx_main_v91 (ix2 p q) k = ix2 k q := fun k => funext fun a => by
    match a with | ⟨0, _⟩ => rfl | ⟨1, _⟩ => rfl
  have eb : idx_main_v92 (idx_main_v93 (ix2 p q)) = ix1 q := funext fun a => by
    match a with | ⟨0, _⟩ => rfl
  simp only [val_main_v94_apply, val_main_v91_apply, val_main_v93_apply, val_main_v92_apply, el, er, eb]
  rfl

/-- The position branch's first normalisation at row `p`. -/
theorem posNorm1 (x1 : (⟨S50000x64, .f32⟩ : BufTy).Contents (Elt Ideal)) (x2 : (⟨S2x400000, .i32⟩ : BufTy).Contents (Elt Ideal)) (x12 : (⟨S_, .f32⟩ : BufTy).Contents (Elt Ideal)) (x13 : (⟨S64x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (p : Fin 50000) (q : Fin 128) :
    val_main_v118 (F := Ideal) x1 x2 x12 x13 x14 x15 x16 (ix2 p q)
      = lnRow (fun k => val_main_v94 (F := Ideal) x1 x2 x12 x13 x14 (ix2 p k)) (fun k => x15 (ix1 k)) (fun k => x16 (ix1 k)) q := by
  have e1 : ∀ (p' : Fin 50000) (q' k : Fin 128), idx_main_v95 (idx_main_v96 (idx_main_v99 (ix2 p' q'))) k = ix2 p' k :=
    fun p' q' k => funext fun a => by match a with | ⟨0, _⟩ => rfl | ⟨1, _⟩ => rfl
  have e1' : ∀ (p' : Fin 50000) (q' k : Fin 128), idx_main_v95 (idx_main_v96 (idx_main_v106 (ix2 p' q'))) k = ix2 p' k :=
    fun p' q' k => funext fun a => by match a with | ⟨0, _⟩ => rfl | ⟨1, _⟩ => rfl
  have e2 : ∀ k : Fin 128, idx_main_v102 (idx_main_v103 (idx_main_v111 (ix2 p q))) k = ix2 p k :=
    fun k => funext fun a => by match a with | ⟨0, _⟩ => rfl | ⟨1, _⟩ => rfl
  have eg : idx_main_v113 (idx_main_v114 (ix2 p q)) = ix1 q := funext fun a => by
    match a with | ⟨0, _⟩ => rfl
  have eb : idx_main_v116 (idx_main_v117 (ix2 p q)) = ix1 q := funext fun a => by
    match a with | ⟨0, _⟩ => rfl
  simp only [val_main_v118_apply, val_main_v117_apply, val_main_v116_apply, val_main_v115_apply, val_main_v114_apply, val_main_v113_apply, val_main_v112_apply, val_main_v111_apply, val_main_v110_apply, val_main_v109_apply, val_main_v108_apply, val_main_v107_apply, val_main_v106_apply, val_main_v105_apply, val_main_v104_apply, val_main_v103_apply, val_main_v102_apply, val_main_v101_apply, val_main_v100_apply, val_main_v99_apply, val_main_v98_apply, val_main_v97_apply, val_main_v96_apply, val_main_v95_apply,
    val_main_cst_16_apply, val_main_cst_17_apply, val_main_cst_18_apply, val_main_cst_19_apply, val_main_cst_20_apply, e1, e1', e2, eg, eb]
  simp only [Ideal.ofBits_def, Ideal.ofBits_zero_f32, zero_add]
  rfl

/-- The first rectifier of the position branch. -/
theorem posRelu1 (x1 : (⟨S50000x64, .f32⟩ : BufTy).Contents (Elt Ideal)) (x2 : (⟨S2x400000, .i32⟩ : BufTy).Contents (Elt Ideal)) (x12 : (⟨S_, .f32⟩ : BufTy).Contents (Elt Ideal)) (x13 : (⟨S64x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (i : S50000x128.Idx) :
    val_main_v119 (F := Ideal) x1 x2 x12 x13 x14 x15 x16 i = relu (val_main_v118 (F := Ideal) x1 x2 x12 x13 x14 x15 x16 i) := by
  simp only [val_main_v119_apply, val_main_call2_v0_apply, val_main_call2_cst_apply]
  rfl

/-- The position branch's second dense layer at row `p`. -/
theorem posDense2 (x1 : (⟨S50000x64, .f32⟩ : BufTy).Contents (Elt Ideal)) (x2 : (⟨S2x400000, .i32⟩ : BufTy).Contents (Elt Ideal)) (x12 : (⟨S_, .f32⟩ : BufTy).Contents (Elt Ideal)) (x13 : (⟨S64x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (p : Fin 50000) (q : Fin 128) :
    val_main_v123 (F := Ideal) x1 x2 x12 x13 x14 x15 x16 x17 x18 (ix2 p q)
      = denseRow (fun k : Fin 128 => val_main_v119 (F := Ideal) x1 x2 x12 x13 x14 x15 x16 (ix2 p k)) (fun k j => x17 (ix2 k j)) (fun j => x18 (ix1 j)) q := by
  have el : ∀ k : Fin 128, lidx_main_v120 (ix2 p q) k = ix2 p k := fun k => funext fun a => by
    match a with | ⟨0, _⟩ => rfl | ⟨1, _⟩ => rfl
  have er : ∀ k : Fin 128, ridx_main_v120 (ix2 p q) k = ix2 k q := fun k => funext fun a => by
    match a with | ⟨0, _⟩ => rfl | ⟨1, _⟩ => rfl
  have eb : idx_main_v121 (idx_main_v122 (ix2 p q)) = ix1 q := funext fun a => by
    match a with | ⟨0, _⟩ => rfl
  simp only [val_main_v123_apply, val_main_v120_apply, val_main_v122_apply, val_main_v121_apply, el, er, eb]
  rfl

/-- The position branch's second normalisation at row `p`. -/
theorem posNorm2 (x1 : (⟨S50000x64, .f32⟩ : BufTy).Contents (Elt Ideal)) (x2 : (⟨S2x400000, .i32⟩ : BufTy).Contents (Elt Ideal)) (x12 : (⟨S_, .f32⟩ : BufTy).Contents (Elt Ideal)) (x13 : (⟨S64x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) (p : Fin 50000) (q : Fin 128) :
    val_main_v147 (F := Ideal) x1 x2 x12 x13 x14 x15 x16 x17 x18 x19 x20 (ix2 p q)
      = lnRow (fun k => val_main_v123 (F := Ideal) x1 x2 x12 x13 x14 x15 x16 x17 x18 (ix2 p k)) (fun k => x19 (ix1 k)) (fun k => x20 (ix1 k)) q := by
  have e1 : ∀ (p' : Fin 50000) (q' k : Fin 128), idx_main_v124 (idx_main_v125 (idx_main_v128 (ix2 p' q'))) k = ix2 p' k :=
    fun p' q' k => funext fun a => by match a with | ⟨0, _⟩ => rfl | ⟨1, _⟩ => rfl
  have e1' : ∀ (p' : Fin 50000) (q' k : Fin 128), idx_main_v124 (idx_main_v125 (idx_main_v135 (ix2 p' q'))) k = ix2 p' k :=
    fun p' q' k => funext fun a => by match a with | ⟨0, _⟩ => rfl | ⟨1, _⟩ => rfl
  have e2 : ∀ k : Fin 128, idx_main_v131 (idx_main_v132 (idx_main_v140 (ix2 p q))) k = ix2 p k :=
    fun k => funext fun a => by match a with | ⟨0, _⟩ => rfl | ⟨1, _⟩ => rfl
  have eg : idx_main_v142 (idx_main_v143 (ix2 p q)) = ix1 q := funext fun a => by
    match a with | ⟨0, _⟩ => rfl
  have eb : idx_main_v145 (idx_main_v146 (ix2 p q)) = ix1 q := funext fun a => by
    match a with | ⟨0, _⟩ => rfl
  simp only [val_main_v147_apply, val_main_v146_apply, val_main_v145_apply, val_main_v144_apply, val_main_v143_apply, val_main_v142_apply, val_main_v141_apply, val_main_v140_apply, val_main_v139_apply, val_main_v138_apply, val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply,
    val_main_cst_21_apply, val_main_cst_22_apply, val_main_cst_23_apply, val_main_cst_24_apply, val_main_cst_25_apply, e1, e1', e2, eg, eb]
  simp only [Ideal.ofBits_def, Ideal.ofBits_zero_f32, zero_add]
  rfl

/-- The second rectifier of the position branch. -/
theorem posRelu2 (x1 : (⟨S50000x64, .f32⟩ : BufTy).Contents (Elt Ideal)) (x2 : (⟨S2x400000, .i32⟩ : BufTy).Contents (Elt Ideal)) (x12 : (⟨S_, .f32⟩ : BufTy).Contents (Elt Ideal)) (x13 : (⟨S64x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) (i : S50000x128.Idx) :
    val_main_v148 (F := Ideal) x1 x2 x12 x13 x14 x15 x16 x17 x18 x19 x20 i = relu (val_main_v147 (F := Ideal) x1 x2 x12 x13 x14 x15 x16 x17 x18 x19 x20 i) := by
  simp only [val_main_v148_apply, val_main_call3_v0_apply, val_main_call3_cst_apply]
  rfl

/-- The reference's position result is the specification's position branch of the aggregated positions it computes. -/
theorem pos_eq (x1 : (⟨S50000x64, .f32⟩ : BufTy).Contents (Elt Ideal)) (x2 : (⟨S2x400000, .i32⟩ : BufTy).Contents (Elt Ideal)) (x12 : (⟨S_, .f32⟩ : BufTy).Contents (Elt Ideal)) (x13 : (⟨S64x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) :
    val_main_v148 (F := Ideal) x1 x2 x12 x13 x14 x15 x16 x17 x18 x19 x20 = posOut (val_main_v90 (F := Ideal) x1 x2 x12) x13 x14 x15 x16 x17 x18 x19 x20 := by
  funext i
  obtain ⟨p, q, rfl⟩ : ∃ (p : Fin 50000) (q : Fin 128), i = ix2 p q := ⟨i 0, i 1, eq_ix2 i⟩
  simp only [posRelu2, posNorm2, posDense2, posRelu1, posNorm1, posDense1]
  rfl

end Cert.ReferenceIdeal.Rows

end
-- ==== Proof.lean ====
/-
  Two GIN layers over 50000 nodes (a feature branch with a residual, a position branch), as a tiled kernel program and
  as whole-array host operations, compute the same extended-real results.

  Both programs first aggregate: every node's row plus the sum of its in-neighbours' rows, by the same gather and
  scatter-add, so the aggregated arrays are the same terms of the arguments. Then each node's aggregated row goes through a
  two-layer network (dense, layer normalisation, rectifier, twice). The kernel program does this in two tiled regions, 25
  blocks of 2000 rows each, with block products, lane sums and broadcasts; the reference does it with whole-array
  operations. Row by row both are the one row function of the specification (`Cert.Gin.mlpRow`): no law of arithmetic
  is needed beyond "a sum started from zero is the sum", so nothing depends on the inputs being finite.

  The kernel's idealized program is the program's own text read on the extended reals (no rewrite was applied), so that
  conjunct is trivial. The three frames are the generated ones; the reference's is its generated run with the results
  dropped.
-/
import proofs.«113962_j36283883716971_1_alg».proof.Defs
import proofs.«113962_j36283883716971_1_alg».proof.Proof.Gen.Kernel
import proofs.«113962_j36283883716971_1_alg».proof.Proof.Gen.Kernel.Skeleton
import proofs.«113962_j36283883716971_1_alg».proof.Proof.Gen.Kernel.Launch
import proofs.«113962_j36283883716971_1_alg».proof.Proof.Gen.Kernel.Points
import proofs.«113962_j36283883716971_1_alg».proof.Proof.Gen.Kernel.Frame
import proofs.«113962_j36283883716971_1_alg».proof.Proof.Gen.KernelIdeal
import proofs.«113962_j36283883716971_1_alg».proof.Proof.Gen.KernelIdeal.Skeleton
import proofs.«113962_j36283883716971_1_alg».proof.Proof.Gen.KernelIdeal.Launch
import proofs.«113962_j36283883716971_1_alg».proof.Proof.Gen.KernelIdeal.Points
import proofs.«113962_j36283883716971_1_alg».proof.Proof.Gen.KernelIdeal.Frame
import proofs.«113962_j36283883716971_1_alg».proof.Proof.Gen.ReferenceIdeal
import proofs.«113962_j36283883716971_1_alg».proof.Proof.Gen.ReferenceIdeal.Run
import proofs.«113962_j36283883716971_1_alg».proof.Proof.Gen.ReferenceIdeal.Read
import proofs.«113962_j36283883716971_1_alg».proof.Proof.Gen.Pre_finite_inputs
import proofs.«113962_j36283883716971_1_alg».proof.Proof.KernelValue
import proofs.«113962_j36283883716971_1_alg».proof.Proof.HostLayers
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's feature and position arrays of
    those arguments. -/
theorem algebraic : Cert.algebraic_KernelIdeal_ReferenceIdeal := by
  intro m ρ m' ρ' _ hagree
  refine ⟨_, _, Cert.KernelIdeal.Whole.run_value m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19, a20⟩ := hagree c
  refine ⟨(h c).1.trans ?_, (h c).2.1.trans ?_, (h c).2.2⟩
  · rw [Cert.ReferenceIdeal.Read.val_main_v149_eq, Cert.ReferenceIdeal.Rows.feat_eq, a0, a1, a2, a3, a4, a5, a6, a7, a8, a9, a10, a11]
  · rw [Cert.ReferenceIdeal.Read.val_main_v148_eq, Cert.ReferenceIdeal.Rows.pos_eq, a1, a2, a12, a13, a14, a15, a16, a17, a18, a19, a20]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
